-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg7 : FVec F S1x256 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg4 : FVec F S256x256 .f32) (main_arg5 : FVec F S1x256 .f32) (main_arg6 : FVec F S1x256 .f32) (main_arg7 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S1024x256 .f32) (main_arg1 : FVec F S1024x256 .f32) (main_arg2 : FVec F S256x256 .f32) (main_arg3 : FVec F S256x256 .f32) (main_arg4 : FVec F S256x256 .f32) (main_arg5 : FVec F S1x256 .f32) (main_arg6 : FVec F S1x256 .f32) (main_arg7 : FVec F S1x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩
abbrev S128x128 : Shape := ⟨2, ![128, 128]⟩
abbrev S1x128 : Shape := ⟨2, ![1, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 44
  | .vmem => 26
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S256x256, .f32⟩
  | .hbm, ⟨41, _⟩ => ⟨S256x256, .f32⟩
  | .hbm, ⟨42, _⟩ => ⟨S1024x256, .f32⟩
  | .hbm, ⟨43, _⟩ => ⟨S1024x256, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_call2_cst : Ref sig .tc := ⟨.hbm, 14, rfl⟩
abbrev main_call2_v0 : Ref sig .tc := ⟨.hbm, 15, rfl⟩
abbrev main_v2 : Ref sig .tc := ⟨.hbm, 16, rfl⟩
abbrev main_call3_cst : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v67 : BitVec 1 := Scalar.cmpi .eq arg2 c1_i32
  let v68 : BitVec 32 := Scalar.extui v67
  let c0_i32_33 : BitVec 32 := 0#32
  let v69 : BitVec 1 := Scalar.cmpi .ne v68 c0_i32_33
  v69

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  bcast_S_S256x256 : S_.BroadcastsInDim S256x256 (![] : Fin 0 → Fin S256x256.rank)
  bcast_S_S1x256 : S_.BroadcastsInDim S1x256 (![] : Fin 0 → Fin S1x256.rank)
  bcast_S_S1024x256 : S_.BroadcastsInDim S1024x256 (![] : Fin 0 → Fin S1024x256.rank)
  transposes_S256x256_S256x256_1_0 : S256x256.Transposes [1, 0] S256x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x256.size a
  hwx0_0 : ∀ i : grid0.Coords, EltTy.bits .f32 = 32 ∨ (Rect.block (s := S1024x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x256.size a
  hwx0_1 : ∀ i : grid0.Coords, EltTy.bits .f32 = 32 ∨ (Rect.block (s := S1024x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x256.size a
  hwx0_2 : ∀ i : grid0.Coords, EltTy.bits .f32 = 32 ∨ (Rect.block (s := S1024x256) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x256.size a
  hwx0_3 : ∀ i : grid0.Coords, EltTy.bits .f32 = 32 ∨ (Rect.block (s := S1024x256) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S256x256.size a
  hwx0_4 : ∀ i : grid0.Coords, EltTy.bits .f32 = 32 ∨ (Rect.block (s := S256x256) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S256x256.size a
  hwx0_5 : ∀ i : grid0.Coords, EltTy.bits .f32 = 32 ∨ (Rect.block (s := S256x256) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S256x256.size a
  hwx0_6 : ∀ i : grid0.Coords, EltTy.bits .f32 = 32 ∨ (Rect.block (s := S256x256) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S256x256.size a
  hwx0_7 : ∀ i : grid0.Coords, EltTy.bits .f32 = 32 ∨ (Rect.block (s := S256x256) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x256.size a
  hwx0_8 : ∀ i : grid0.Coords, EltTy.bits .f32 = 32 ∨ (Rect.block (s := S1x256) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x256.size a
  hwx0_9 : ∀ i : grid0.Coords, EltTy.bits .f32 = 32 ∨ (Rect.block (s := S1x256) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S1024x256.size a
  hwx0_10 : ∀ i : grid0.Coords, EltTy.bits .f32 = 32 ∨ (Rect.block (s := S1024x256) S128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S1024x256.size a
  hwx0_11 : ∀ i : grid0.Coords, EltTy.bits .f32 = 32 ∨ (Rect.block (s := S1024x256) S128x128.size (cc0_transform_11 i) (hinb0_11 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v16) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_0) S128x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_1) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩
abbrev S1024x256x1 : Shape := ⟨3, ![1024, 256, 1]⟩
abbrev S1x256x256 : Shape := ⟨3, ![1, 256, 256]⟩
abbrev S1024x256x256 : Shape := ⟨3, ![1024, 256, 256]⟩

abbrev nBuf : Space → Nat
  | .hbm => 56
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S1024x256x1, .f32⟩
  | .hbm, ⟨25, _⟩ => ⟨S1024x256x1, .f32⟩
  | .hbm, ⟨26, _⟩ => ⟨S1x256x256, .f32⟩
  | .hbm, ⟨27, _⟩ => ⟨S1024x256x256, .f32⟩
  | .hbm, ⟨28, _⟩ => ⟨S1024x256x256, .f32⟩
  | .hbm, ⟨29, _⟩ => ⟨S1024x256x256, .f32⟩
  | .hbm, ⟨30, _⟩ => ⟨S1x256x256, .f32⟩
  | .hbm, ⟨31, _⟩ => ⟨S1024x256x256, .f32⟩
  | .hbm, ⟨32, _⟩ => ⟨S1024x256x256, .f32⟩
  | .hbm, ⟨33, _⟩ => ⟨S1024x256x256, .f32⟩
  | .hbm, ⟨34, _⟩ => ⟨S1x256x256, .f32⟩
  | .hbm, ⟨35, _⟩ => ⟨S1024x256x256, .f32⟩
  | .hbm, ⟨36, _⟩ => ⟨S1024x256x256, .f32⟩
  | .hbm, ⟨37, _⟩ => ⟨S1024x256x256, .f32⟩
  | .hbm, ⟨38, _⟩ => ⟨S1x256x256, .f32⟩
  | .hbm, ⟨39, _⟩ => ⟨S1024x256x256, .f32⟩
  | .hbm, ⟨40, _⟩ => ⟨S1024x256x256, .f32⟩
  | .hbm, ⟨41, _⟩ => ⟨S1024x256x256, .f32⟩
  | .hbm, ⟨42, _⟩ => ⟨S1024x256x256, .f32⟩
  | .hbm, ⟨43, _⟩ => ⟨S1024x256x256, .f32⟩
  | .hbm, ⟨44, _⟩ => ⟨S1024x256x256, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256x256, .f32⟩
  | .hbm, ⟨50, _⟩ => ⟨S1024x256x256, .f32⟩
  | .hbm, ⟨51, _⟩ => ⟨S1024x256x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_call2_cst : Ref sig .tc := ⟨.hbm, 14, rfl⟩
abbrev main_call2_v0 : Ref sig .tc := ⟨.hbm, 15, rfl⟩
abbrev main_v2 : Ref sig .tc := ⟨.hbm, 16, rfl⟩
abbrev main_call3_cst : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S_S1x256 : S_.BroadcastsInDim S1x256 (![] : Fin 0 → Fin S1x256.rank)
  bcast_S1024x256_S1024x256x1_0_1 : S1024x256.BroadcastsInDim S1024x256x1 (![0, 1] : Fin 2 → Fin S1024x256x1.rank)
  bcast_S256x256_S1x256x256_1_2 : S256x256.BroadcastsInDim S1x256x256 (![1, 2] : Fin 2 → Fin S1x256x256.rank)
  bcast_S1024x256x1_S1024x256x256_0_1_2 : S1024x256x1.BroadcastsInDim S1024x256x256 (![0, 1, 2] : Fin 3 → Fin S1024x256x256.rank)
  bcast_S1x256x256_S1024x256x256_0_1_2 : S1x256x256.BroadcastsInDim S1024x256x256 (![0, 1, 2] : Fin 3 → Fin S1024x256x256.rank)
  reducesTo_S1024x256x256_S1024x256_d1 : S1024x256x256.ReducesTo [1] S1024x256
  h_S_ : 0 < S_.numel
  bcast_S1x256_S1024x256_0_1 : S1x256.BroadcastsInDim S1024x256 (![0, 1] : Fin 2 → Fin S1024x256.rank)

variable [Facts₀]

class Facts : Prop extends Facts₀ where

variable [Facts]
-- ==== Proof.Blocks.lean ====
/-
  Where the blocks of the interval kernel's staged arrays sit.

  The grid has 8 × 2 × 2 points; point number `t` is row block `t / 4`, column block `t / 2 % 2` and
  reduction block `t % 2`.  The four input-endpoint arrays (1024 × 256) are cut into 128 × 128 blocks indexed
  by (row block, reduction block); the two weight-endpoint arrays (256 × 256) by (reduction block, column
  block) and their transposes by (column block, reduction block); the two bias rows (1 × 256) into 1 × 128
  blocks indexed by the column block.  Entry `(p, q)` of a block with block index `(a, b)` and block shape
  `(h, w)` is entry `(h * a + p, w * b + q)` of the array, as the region finds it.
-/
import proofs.«176591_j82231443849327_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The printed index maps, decided over the 32 grid points -/

theorem idx0 : ∀ t : Fin cfg0.N, win0_0.index t (0 : Fin 2) = t.val / 4 ∧ win0_0.index t (1 : Fin 2) = t.val % 2 :=
  (by decide +kernel : ∀ t : Fin grid0.N, win0_0.index t (0 : Fin 2) = t.val / 4 ∧ win0_0.index t (1 : Fin 2) = t.val % 2)

theorem idx1 : ∀ t : Fin cfg0.N, win0_1.index t (0 : Fin 2) = t.val / 4 ∧ win0_1.index t (1 : Fin 2) = t.val % 2 :=
  (by decide +kernel : ∀ t : Fin grid0.N, win0_1.index t (0 : Fin 2) = t.val / 4 ∧ win0_1.index t (1 : Fin 2) = t.val % 2)

theorem idx2 : ∀ t : Fin cfg0.N, win0_2.index t (0 : Fin 2) = t.val / 4 ∧ win0_2.index t (1 : Fin 2) = t.val % 2 :=
  (by decide +kernel : ∀ t : Fin grid0.N, win0_2.index t (0 : Fin 2) = t.val / 4 ∧ win0_2.index t (1 : Fin 2) = t.val % 2)

theorem idx3 : ∀ t : Fin cfg0.N, win0_3.index t (0 : Fin 2) = t.val / 4 ∧ win0_3.index t (1 : Fin 2) = t.val % 2 :=
  (by decide +kernel : ∀ t : Fin grid0.N, win0_3.index t (0 : Fin 2) = t.val / 4 ∧ win0_3.index t (1 : Fin 2) = t.val % 2)

theorem idx4 : ∀ t : Fin cfg0.N, win0_4.index t (0 : Fin 2) = t.val % 2 ∧ win0_4.index t (1 : Fin 2) = t.val / 2 % 2 :=
  (by decide +kernel : ∀ t : Fin grid0.N, win0_4.index t (0 : Fin 2) = t.val % 2 ∧ win0_4.index t (1 : Fin 2) = t.val / 2 % 2)

theorem idx5 : ∀ t : Fin cfg0.N, win0_5.index t (0 : Fin 2) = t.val % 2 ∧ win0_5.index t (1 : Fin 2) = t.val / 2 % 2 :=
  (by decide +kernel : ∀ t : Fin grid0.N, win0_5.index t (0 : Fin 2) = t.val % 2 ∧ win0_5.index t (1 : Fin 2) = t.val / 2 % 2)

theorem idx6 : ∀ t : Fin cfg0.N, win0_6.index t (0 : Fin 2) = t.val / 2 % 2 ∧ win0_6.index t (1 : Fin 2) = t.val % 2 :=
  (by decide +kernel : ∀ t : Fin grid0.N, win0_6.index t (0 : Fin 2) = t.val / 2 % 2 ∧ win0_6.index t (1 : Fin 2) = t.val % 2)

theorem idx7 : ∀ t : Fin cfg0.N, win0_7.index t (0 : Fin 2) = t.val / 2 % 2 ∧ win0_7.index t (1 : Fin 2) = t.val % 2 :=
  (by decide +kernel : ∀ t : Fin grid0.N, win0_7.index t (0 : Fin 2) = t.val / 2 % 2 ∧ win0_7.index t (1 : Fin 2) = t.val % 2)

theorem idx8 : ∀ t : Fin cfg0.N, win0_8.index t (0 : Fin 2) = 0 ∧ win0_8.index t (1 : Fin 2) = t.val / 2 % 2 :=
  (by decide +kernel : ∀ t : Fin grid0.N, win0_8.index t (0 : Fin 2) = 0 ∧ win0_8.index t (1 : Fin 2) = t.val / 2 % 2)

theorem idx9 : ∀ t : Fin cfg0.N, win0_9.index t (0 : Fin 2) = 0 ∧ win0_9.index t (1 : Fin 2) = t.val / 2 % 2 :=
  (by decide +kernel : ∀ t : Fin grid0.N, win0_9.index t (0 : Fin 2) = 0 ∧ win0_9.index t (1 : Fin 2) = t.val / 2 % 2)

theorem idx10 : ∀ t : Fin cfg0.N, win0_10.index t (0 : Fin 2) = t.val / 4 ∧ win0_10.index t (1 : Fin 2) = t.val / 2 % 2 :=
  (by decide +kernel : ∀ t : Fin grid0.N, win0_10.index t (0 : Fin 2) = t.val / 4 ∧ win0_10.index t (1 : Fin 2) = t.val / 2 % 2)
theorem idx11 : ∀ t : Fin cfg0.N, win0_11.index t (0 : Fin 2) = t.val / 4 ∧ win0_11.index t (1 : Fin 2) = t.val / 2 % 2 :=
  (by decide +kernel : ∀ t : Fin grid0.N, win0_11.index t (0 : Fin 2) = t.val / 4 ∧ win0_11.index t (1 : Fin 2) = t.val / 2 % 2)

/-! ## A block's entry is an entry of the array the region found -/

/-- Window 0: entry `(p, q)` of point `t`'s block is entry `(r, k)` of the array, for `r = 128 * (t.val / 4) + p`, `k = 128 * (t.val % 2) + q`. -/
theorem iblk0_at (c : Dev nD) (t : Fin cfg0.N) (p : Fin 128) (q : Fin 128) (r : Fin 1024) (k : Fin 256)
    (hr : r.val = 128 * (t.val / 4) + p.val) (hk : k.val = 128 * (t.val % 2) + q.val) :
    (iblk m c 0 t : Vec F S128x128 .f32) (ix2 p q) = V m c main_v16 (ix2 r k) := by
  obtain ⟨e0, e1⟩ := idx0 t
  unfold iblk
  rw [View.read_apply]
  show V m c main_v16 _ = V m c main_v16 _
  refine congrArg (V m c main_v16) (funext fun a => Fin.ext ?_)
  match a with
  | ⟨0, _⟩ => show win0_0.index t (0 : Fin 2) * 128 + 1 * p.val = r.val; rw [e0, hr]; omega
  | ⟨1, _⟩ => show win0_0.index t (1 : Fin 2) * 128 + 1 * q.val = k.val; rw [e1, hk]; omega

/-- Window 1: entry `(p, q)` of point `t`'s block is entry `(r, k)` of the array, for `r = 128 * (t.val / 4) + p`, `k = 128 * (t.val % 2) + q`. -/
theorem iblk1_at (c : Dev nD) (t : Fin cfg0.N) (p : Fin 128) (q : Fin 128) (r : Fin 1024) (k : Fin 256)
    (hr : r.val = 128 * (t.val / 4) + p.val) (hk : k.val = 128 * (t.val % 2) + q.val) :
    (iblk m c 1 t : Vec F S128x128 .f32) (ix2 p q) = V m c main_v17 (ix2 r k) := by
  obtain ⟨e0, e1⟩ := idx1 t
  unfold iblk
  rw [View.read_apply]
  show V m c main_v17 _ = V m c main_v17 _
  refine congrArg (V m c main_v17) (funext fun a => Fin.ext ?_)
  match a with
  | ⟨0, _⟩ => show win0_1.index t (0 : Fin 2) * 128 + 1 * p.val = r.val; rw [e0, hr]; omega
  | ⟨1, _⟩ => show win0_1.index t (1 : Fin 2) * 128 + 1 * q.val = k.val; rw [e1, hk]; omega

/-- Window 2: entry `(p, q)` of point `t`'s block is entry `(r, k)` of the array, for `r = 128 * (t.val / 4) + p`, `k = 128 * (t.val % 2) + q`. -/
theorem iblk2_at (c : Dev nD) (t : Fin cfg0.N) (p : Fin 128) (q : Fin 128) (r : Fin 1024) (k : Fin 256)
    (hr : r.val = 128 * (t.val / 4) + p.val) (hk : k.val = 128 * (t.val % 2) + q.val) :
    (iblk m c 2 t : Vec F S128x128 .f32) (ix2 p q) = V m c main_v18 (ix2 r k) := by
  obtain ⟨e0, e1⟩ := idx2 t
  unfold iblk
  rw [View.read_apply]
  show V m c main_v18 _ = V m c main_v18 _
  refine congrArg (V m c main_v18) (funext fun a => Fin.ext ?_)
  match a with
  | ⟨0, _⟩ => show win0_2.index t (0 : Fin 2) * 128 + 1 * p.val = r.val; rw [e0, hr]; omega
  | ⟨1, _⟩ => show win0_2.index t (1 : Fin 2) * 128 + 1 * q.val = k.val; rw [e1, hk]; omega

/-- Window 3: entry `(p, q)` of point `t`'s block is entry `(r, k)` of the array, for `r = 128 * (t.val / 4) + p`, `k = 128 * (t.val % 2) + q`. -/
theorem iblk3_at (c : Dev nD) (t : Fin cfg0.N) (p : Fin 128) (q : Fin 128) (r : Fin 1024) (k : Fin 256)
    (hr : r.val = 128 * (t.val / 4) + p.val) (hk : k.val = 128 * (t.val % 2) + q.val) :
    (iblk m c 3 t : Vec F S128x128 .f32) (ix2 p q) = V m c main_v19 (ix2 r k) := by
  obtain ⟨e0, e1⟩ := idx3 t
  unfold iblk
  rw [View.read_apply]
  show V m c main_v19 _ = V m c main_v19 _
  refine congrArg (V m c main_v19) (funext fun a => Fin.ext ?_)
  match a with
  | ⟨0, _⟩ => show win0_3.index t (0 : Fin 2) * 128 + 1 * p.val = r.val; rw [e0, hr]; omega
  | ⟨1, _⟩ => show win0_3.index t (1 : Fin 2) * 128 + 1 * q.val = k.val; rw [e1, hk]; omega

/-- Window 4: entry `(p, q)` of point `t`'s block is entry `(r, k)` of the array, for `r = 128 * (t.val % 2) + p`, `k = 128 * (t.val / 2 % 2) + q`. -/
theorem iblk4_at (c : Dev nD) (t : Fin cfg0.N) (p : Fin 128) (q : Fin 128) (r : Fin 256) (k : Fin 256)
    (hr : r.val = 128 * (t.val % 2) + p.val) (hk : k.val = 128 * (t.val / 2 % 2) + q.val) :
    (iblk m c 4 t : Vec F S128x128 .f32) (ix2 p q) = V m c main_v4 (ix2 r k) := by
  obtain ⟨e0, e1⟩ := idx4 t
  unfold iblk
  rw [View.read_apply]
  show V m c main_v4 _ = V m c main_v4 _
  refine congrArg (V m c main_v4) (funext fun a => Fin.ext ?_)
  match a with
  | ⟨0, _⟩ => show win0_4.index t (0 : Fin 2) * 128 + 1 * p.val = r.val; rw [e0, hr]; omega
  | ⟨1, _⟩ => show win0_4.index t (1 : Fin 2) * 128 + 1 * q.val = k.val; rw [e1, hk]; omega

/-- Window 5: entry `(p, q)` of point `t`'s block is entry `(r, k)` of the array, for `r = 128 * (t.val % 2) + p`, `k = 128 * (t.val / 2 % 2) + q`. -/
theorem iblk5_at (c : Dev nD) (t : Fin cfg0.N) (p : Fin 128) (q : Fin 128) (r : Fin 256) (k : Fin 256)
    (hr : r.val = 128 * (t.val % 2) + p.val) (hk : k.val = 128 * (t.val / 2 % 2) + q.val) :
    (iblk m c 5 t : Vec F S128x128 .f32) (ix2 p q) = V m c main_v5 (ix2 r k) := by
  obtain ⟨e0, e1⟩ := idx5 t
  unfold iblk
  rw [View.read_apply]
  show V m c main_v5 _ = V m c main_v5 _
  refine congrArg (V m c main_v5) (funext fun a => Fin.ext ?_)
  match a with
  | ⟨0, _⟩ => show win0_5.index t (0 : Fin 2) * 128 + 1 * p.val = r.val; rw [e0, hr]; omega
  | ⟨1, _⟩ => show win0_5.index t (1 : Fin 2) * 128 + 1 * q.val = k.val; rw [e1, hk]; omega

/-- Window 6: entry `(p, q)` of point `t`'s block is entry `(r, k)` of the array, for `r = 128 * (t.val / 2 % 2) + p`, `k = 128 * (t.val % 2) + q`. -/
theorem iblk6_at (c : Dev nD) (t : Fin cfg0.N) (p : Fin 128) (q : Fin 128) (r : Fin 256) (k : Fin 256)
    (hr : r.val = 128 * (t.val / 2 % 2) + p.val) (hk : k.val = 128 * (t.val % 2) + q.val) :
    (iblk m c 6 t : Vec F S128x128 .f32) (ix2 p q) = V m c main_v20 (ix2 r k) := by
  obtain ⟨e0, e1⟩ := idx6 t
  unfold iblk
  rw [View.read_apply]
  show V m c main_v20 _ = V m c main_v20 _
  refine congrArg (V m c main_v20) (funext fun a => Fin.ext ?_)
  match a with
  | ⟨0, _⟩ => show win0_6.index t (0 : Fin 2) * 128 + 1 * p.val = r.val; rw [e0, hr]; omega
  | ⟨1, _⟩ => show win0_6.index t (1 : Fin 2) * 128 + 1 * q.val = k.val; rw [e1, hk]; omega

/-- Window 7: entry `(p, q)` of point `t`'s block is entry `(r, k)` of the array, for `r = 128 * (t.val / 2 % 2) + p`, `k = 128 * (t.val % 2) + q`. -/
theorem iblk7_at (c : Dev nD) (t : Fin cfg0.N) (p : Fin 128) (q : Fin 128) (r : Fin 256) (k : Fin 256)
    (hr : r.val = 128 * (t.val / 2 % 2) + p.val) (hk : k.val = 128 * (t.val % 2) + q.val) :
    (iblk m c 7 t : Vec F S128x128 .f32) (ix2 p q) = V m c main_v21 (ix2 r k) := by
  obtain ⟨e0, e1⟩ := idx7 t
  unfold iblk
  rw [View.read_apply]
  show V m c main_v21 _ = V m c main_v21 _
  refine congrArg (V m c main_v21) (funext fun a => Fin.ext ?_)
  match a with
  | ⟨0, _⟩ => show win0_7.index t (0 : Fin 2) * 128 + 1 * p.val = r.val; rw [e0, hr]; omega
  | ⟨1, _⟩ => show win0_7.index t (1 : Fin 2) * 128 + 1 * q.val = k.val; rw [e1, hk]; omega

/-- Window 8: entry `(p, q)` of point `t`'s block is entry `(r, k)` of the array, for `r = 1 * (0) + p`, `k = 128 * (t.val / 2 % 2) + q`. -/
theorem iblk8_at (c : Dev nD) (t : Fin cfg0.N) (p : Fin 1) (q : Fin 128) (r : Fin 1) (k : Fin 256)
    (hr : r.val = 1 * (0) + p.val) (hk : k.val = 128 * (t.val / 2 % 2) + q.val) :
    (iblk m c 8 t : Vec F S1x128 .f32) (ix2 p q) = V m c main_v6 (ix2 r k) := by
  obtain ⟨e0, e1⟩ := idx8 t
  unfold iblk
  rw [View.read_apply]
  show V m c main_v6 _ = V m c main_v6 _
  refine congrArg (V m c main_v6) (funext fun a => Fin.ext ?_)
  match a with
  | ⟨0, _⟩ => show win0_8.index t (0 : Fin 2) * 1 + 1 * p.val = r.val; rw [e0, hr]; omega
  | ⟨1, _⟩ => show win0_8.index t (1 : Fin 2) * 128 + 1 * q.val = k.val; rw [e1, hk]; omega

/-- Window 9: entry `(p, q)` of point `t`'s block is entry `(r, k)` of the array, for `r = 1 * (0) + p`, `k = 128 * (t.val / 2 % 2) + q`. -/
theorem iblk9_at (c : Dev nD) (t : Fin cfg0.N) (p : Fin 1) (q : Fin 128) (r : Fin 1) (k : Fin 256)
    (hr : r.val = 1 * (0) + p.val) (hk : k.val = 128 * (t.val / 2 % 2) + q.val) :
    (iblk m c 9 t : Vec F S1x128 .f32) (ix2 p q) = V m c main_v7 (ix2 r k) := by
  obtain ⟨e0, e1⟩ := idx9 t
  unfold iblk
  rw [View.read_apply]
  show V m c main_v7 _ = V m c main_v7 _
  refine congrArg (V m c main_v7) (funext fun a => Fin.ext ?_)
  match a with
  | ⟨0, _⟩ => show win0_9.index t (0 : Fin 2) * 1 + 1 * p.val = r.val; rw [e0, hr]; omega
  | ⟨1, _⟩ => show win0_9.index t (1 : Fin 2) * 128 + 1 * q.val = k.val; rw [e1, hk]; omega

end Cert.KernelIdeal.Blocks

end
-- ==== Proof.Spec.lean ====
/-
  The interval dense layer, index by index, over the extended reals — in the two arrangements the
  two programs compute it.

  Inputs: the input interval's endpoint arrays `hl`, `hr` (1024 × 256), the weight centre `wb` and its two
  spreads `wa`, `wc` (256 × 256), the bias centre `bb` and spreads `ba`, `bc` (1 × 256).  The weight interval at
  `(k, j)` is `[wb − max wa 0, wb + max wc 0]`, the bias interval at `j` is `[bb − max ba 0, bb + max bc 0]`.

  DIRECT form (`refLoAt`, `refHiAt`): at row `r` and column `c` the lower (upper) output is zero plus the sum over
  `k` of the least (greatest) of the four endpoint products `hl·wLo, hl·wHi, hr·wLo, hr·wHi`, plus the bias
  endpoint.

  HALF-SUM form (`kerLoAt`, `kerHiAt`): with `x⁺ = max x 0`, `x⁻ = min x 0`, the sums `sxp = hl⁺ + hr⁺`,
  `sxn = hl⁻ + hr⁻` and differences `dxp = hr⁺ − hl⁺`, `dxn = hr⁻ − hl⁻`, the reduction axis is cut into two
  blocks of 128; block `kb` contributes half of `Σ sxp·wLo + Σ sxn·wHi` minus (for the upper output: the same
  with the endpoints swapped, plus) half of `Σ |dxp·wLo + dxn·wHi|`; the two contributions are added to zero
  in order and the bias endpoint is added last.
-/
import Idealize.ShloMosaic.PureOps.Ideal
import Idealize.ShloMosaic.Lib.ValueIdx

noncomputable section

namespace Cert.Interval

open Idealize.ShloMosaic Idealize.ShloMosaic.ValueIdx

/-- Arrays of extended reals of the three shapes. -/
abbrev ArrX : Type := (⟨2, ![1024, 256]⟩ : Shape).Idx → EReal
abbrev ArrW : Type := (⟨2, ![256, 256]⟩ : Shape).Idx → EReal
abbrev ArrB : Type := (⟨2, ![1, 256]⟩ : Shape).Idx → EReal

/-- Every entry of an array is a real number. -/
def IsReal {ι : Type} (x : ι → EReal) : Prop := ∃ f : ι → ℝ, x = fun i => ((f i : ℝ) : EReal)

/-- The weight interval's endpoints at `(k, j)` and the bias interval's at `j`. -/
def wLo (wb wa : ArrW) (k j : Fin 256) : EReal := wb (ix2 k j) - max (wa (ix2 k j)) 0
def wHi (wb wc : ArrW) (k j : Fin 256) : EReal := wb (ix2 k j) + max (wc (ix2 k j)) 0
def bLo (bb ba : ArrB) (j : Fin 256) : EReal := bb (ix2 (0 : Fin 1) j) - max (ba (ix2 (0 : Fin 1) j)) 0
def bHi (bb bc : ArrB) (j : Fin 256) : EReal := bb (ix2 (0 : Fin 1) j) + max (bc (ix2 (0 : Fin 1) j)) 0

/-! ## The direct form -/

/-- Lower output at `(r, c)`: zero plus the sum over `k` of the least endpoint product, plus the lower bias. -/
def refLoAt (hl hr : ArrX) (wb wa wc : ArrW) (bb ba : ArrB) (r : Fin 1024) (c : Fin 256) : EReal :=
  (0 + ∑ k : Fin 256,
      min (min (hl (ix2 r k) * wLo wb wa k c) (hl (ix2 r k) * wHi wb wc k c))
          (min (hr (ix2 r k) * wLo wb wa k c) (hr (ix2 r k) * wHi wb wc k c)))
    + bLo bb ba c

/-- Upper output at `(r, c)`: zero plus the sum over `k` of the greatest endpoint product, plus the upper bias. -/
def refHiAt (hl hr : ArrX) (wb wa wc : ArrW) (bb bc : ArrB) (r : Fin 1024) (c : Fin 256) : EReal :=
  (0 + ∑ k : Fin 256,
      max (max (hl (ix2 r k) * wLo wb wa k c) (hl (ix2 r k) * wHi wb wc k c))
          (max (hr (ix2 r k) * wLo wb wa k c) (hr (ix2 r k) * wHi wb wc k c)))
    + bHi bb bc c

/-! ## The half-sum form, accumulated over two blocks of the reduction axis -/

/-- The reduction index of entry `kk` of block `kb`. -/
def kIdx (kb : Fin 2) (kk : Fin 128) : Fin 256 := ⟨128 * kb.val + kk.val, by have := kb.isLt; have := kk.isLt; omega⟩

/-- Sums and differences of the positive and negative parts of the input endpoints at `(r, k)`. -/
def sxp (hl hr : ArrX) (r : Fin 1024) (k : Fin 256) : EReal := max (hl (ix2 r k)) 0 + max (hr (ix2 r k)) 0
def sxn (hl hr : ArrX) (r : Fin 1024) (k : Fin 256) : EReal := min (hl (ix2 r k)) 0 + min (hr (ix2 r k)) 0
def dxp (hl hr : ArrX) (r : Fin 1024) (k : Fin 256) : EReal := max (hr (ix2 r k)) 0 - max (hl (ix2 r k)) 0
def dxn (hl hr : ArrX) (r : Fin 1024) (k : Fin 256) : EReal := min (hr (ix2 r k)) 0 - min (hl (ix2 r k)) 0

/-- The constant one half, as the programs spell it. -/
def half : EReal := Ideal.ofBits .f32 0x3F000000#32

/-- The spelt constant denotes the real number one half. -/
theorem half_eq : half = (((1 : ℝ) / 2 : ℝ) : EReal) := by
  unfold half
  simp [Ideal.ofBits, Ideal.ieee, -EReal.coe_mul]; norm_num

/-- Block `kb`'s contribution to the lower output at `(r, c)`. -/
def stepLo (hl hr : ArrX) (wb wa wc : ArrW) (r : Fin 1024) (c : Fin 256) (kb : Fin 2) : EReal :=
  half * ((∑ kk : Fin 128, sxp hl hr r (kIdx kb kk) * wLo wb wa (kIdx kb kk) c)
            + (∑ kk : Fin 128, sxn hl hr r (kIdx kb kk) * wHi wb wc (kIdx kb kk) c))
    - half * ∑ kk : Fin 128,
        max (dxp hl hr r (kIdx kb kk) * wLo wb wa (kIdx kb kk) c + dxn hl hr r (kIdx kb kk) * wHi wb wc (kIdx kb kk) c)
            (-(dxp hl hr r (kIdx kb kk) * wLo wb wa (kIdx kb kk) c + dxn hl hr r (kIdx kb kk) * wHi wb wc (kIdx kb kk) c))

/-- Block `kb`'s contribution to the upper output at `(r, c)`. -/
def stepHi (hl hr : ArrX) (wb wa wc : ArrW) (r : Fin 1024) (c : Fin 256) (kb : Fin 2) : EReal :=
  half * ((∑ kk : Fin 128, sxp hl hr r (kIdx kb kk) * wHi wb wc (kIdx kb kk) c)
            + (∑ kk : Fin 128, sxn hl hr r (kIdx kb kk) * wLo wb wa (kIdx kb kk) c))
    + half * ∑ kk : Fin 128,
        max (dxp hl hr r (kIdx kb kk) * wHi wb wc (kIdx kb kk) c + dxn hl hr r (kIdx kb kk) * wLo wb wa (kIdx kb kk) c)
            (-(dxp hl hr r (kIdx kb kk) * wHi wb wc (kIdx kb kk) c + dxn hl hr r (kIdx kb kk) * wLo wb wa (kIdx kb kk) c))

/-- Lower output at `(r, c)`, accumulated: zero, plus block 0, plus block 1, plus the lower bias. -/
def kerLoAt (hl hr : ArrX) (wb wa wc : ArrW) (bb ba : ArrB) (r : Fin 1024) (c : Fin 256) : EReal :=
  ((0 + stepLo hl hr wb wa wc r c 0) + stepLo hl hr wb wa wc r c 1) + bLo bb ba c

/-- Upper output at `(r, c)`, accumulated: zero, plus block 0, plus block 1, plus the upper bias. -/
def kerHiAt (hl hr : ArrX) (wb wa wc : ArrW) (bb bc : ArrB) (r : Fin 1024) (c : Fin 256) : EReal :=
  ((0 + stepHi hl hr wb wa wc r c 0) + stepHi hl hr wb wa wc r c 1) + bHi bb bc c

/-! ## The whole arrays -/

/-- The lower and upper outputs as whole arrays, in the direct form: what both programs end with. -/
def outLo (hl hr : ArrX) (wb wa wc : ArrW) (bb ba : ArrB) : ArrX :=
  fun i => refLoAt hl hr wb wa wc bb ba ⟨(i 0).val, (i 0).isLt⟩ ⟨(i 1).val, (i 1).isLt⟩
def outHi (hl hr : ArrX) (wb wa wc : ArrW) (bb bc : ArrB) : ArrX :=
  fun i => refHiAt hl hr wb wa wc bb bc ⟨(i 0).val, (i 0).isLt⟩ ⟨(i 1).val, (i 1).isLt⟩

end Cert.Interval

end
-- ==== Proof.HostPrefix.lean ====
/-
  What each array handed to the kernel region holds, entry by entry, in terms of the program's eight arguments,
  over the extended reals.

  Before the region the program forms, elementwise: the positive parts `max · 0` of the four spread arrays; the
  weight interval's endpoints (centre minus, plus, a positive part) and the bias interval's likewise; the positive
  and negative parts of the two input endpoint arrays, their sums and their differences; and the transposes of the
  two weight endpoint arrays.  A maximum or minimum with the broadcast zero constant reads, at an index, `max x 0`
  or `min x 0`; sums and differences read entrywise; a transposed matrix reads at `(j, k)` what the matrix holds at
  `(k, j)`.  Each statement below first names the whole array as the composed term of the arguments and then reads it
  at an index.
-/
import proofs.«176591_j82231443849327_2_alg».proof.Proof.Gen.KernelIdeal.Frame
import proofs.«176591_j82231443849327_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx
  Idealize.SL.Sem Cert.Interval
open Idealize.ShloMosaic.StableHlo

variable (m : (ℓ : Loc nD τ sig) → Buf (Elt Ideal) ℓ)

/-! ## A zero splat under a maximum or a minimum -/

/-- The maximum of an array with the broadcast zero constant reads, at an index, the positive part of the entry. -/
theorem relu_at {s : Shape} (dims : Fin S_.rank → Fin s.rank) (h : S_.BroadcastsInDim s dims) (x : FVec Ideal s .f32) (i : s.Idx) :
    maximumf x (broadcastInDim s dims h (constant (F := Ideal) S_ .f32 0x00000000#32)) i = max (x i) 0 := by
  rw [maximumf_apply, broadcastInDim_apply dims h _ i (fun a => a.elim0) (fun a => a.elim0), constant_apply,
    Ideal.ofBits_zero_f32]

/-- The minimum of an array with the broadcast zero constant reads, at an index, the negative part of the entry. -/
theorem nrelu_at {s : Shape} (dims : Fin S_.rank → Fin s.rank) (h : S_.BroadcastsInDim s dims) (x : FVec Ideal s .f32) (i : s.Idx) :
    minimumf x (broadcastInDim s dims h (constant (F := Ideal) S_ .f32 0x00000000#32)) i = min (x i) 0 := by
  rw [minimumf_apply, broadcastInDim_apply dims h _ i (fun a => a.elim0) (fun a => a.elim0), constant_apply,
    Ideal.ofBits_zero_f32]

/-! ## The input endpoints' positive and negative parts, summed and differenced -/

set_option maxRecDepth 8192 in
set_option maxHeartbeats 2000000 in
/-- As a whole array, buffer 16 at the region's entry is the sum of the positive parts of the two input endpoints. -/
theorem V16_whole (c : Dev nD) :
    (V m c main_v16 : S1024x256.Idx → EReal)
      = addf (maximumf (m ((c : Thread nD τ).loc main_arg0)) (broadcastInDim S1024x256 ![] bcast_S_S1024x256 (constant (F := Ideal) S_ .f32 0x00000000#32))) (maximumf (m ((c : Thread nD τ).loc main_arg1)) (broadcastInDim S1024x256 ![] bcast_S_S1024x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(r, k)` of buffer 16 is the sum of the positive parts of the two input endpoints there. -/
theorem V16_at (c : Dev nD) (r : Fin 1024) (k : Fin 256) :
    V m c main_v16 (ix2 r k) = sxp (m ((c : Thread nD τ).loc main_arg0)) (m ((c : Thread nD τ).loc main_arg1)) r k := by
  refine (congrFun (V16_whole m c) (ix2 r k)).trans ?_
  rw [addf_apply, relu_at, relu_at]
  rfl

set_option maxRecDepth 8192 in
set_option maxHeartbeats 2000000 in
/-- As a whole array, buffer 17 at the region's entry is the sum of the negative parts of the two input endpoints. -/
theorem V17_whole (c : Dev nD) :
    (V m c main_v17 : S1024x256.Idx → EReal)
      = addf (minimumf (m ((c : Thread nD τ).loc main_arg0)) (broadcastInDim S1024x256 ![] bcast_S_S1024x256 (constant (F := Ideal) S_ .f32 0x00000000#32))) (minimumf (m ((c : Thread nD τ).loc main_arg1)) (broadcastInDim S1024x256 ![] bcast_S_S1024x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(r, k)` of buffer 17 is the sum of the negative parts of the two input endpoints there. -/
theorem V17_at (c : Dev nD) (r : Fin 1024) (k : Fin 256) :
    V m c main_v17 (ix2 r k) = sxn (m ((c : Thread nD τ).loc main_arg0)) (m ((c : Thread nD τ).loc main_arg1)) r k := by
  refine (congrFun (V17_whole m c) (ix2 r k)).trans ?_
  rw [addf_apply, nrelu_at, nrelu_at]
  rfl

set_option maxRecDepth 8192 in
set_option maxHeartbeats 2000000 in
/-- As a whole array, buffer 18 at the region's entry is the difference of the positive parts of the two input endpoints. -/
theorem V18_whole (c : Dev nD) :
    (V m c main_v18 : S1024x256.Idx → EReal)
      = subf (maximumf (m ((c : Thread nD τ).loc main_arg1)) (broadcastInDim S1024x256 ![] bcast_S_S1024x256 (constant (F := Ideal) S_ .f32 0x00000000#32))) (maximumf (m ((c : Thread nD τ).loc main_arg0)) (broadcastInDim S1024x256 ![] bcast_S_S1024x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(r, k)` of buffer 18 is the upper endpoint's positive part minus the lower endpoint's. -/
theorem V18_at (c : Dev nD) (r : Fin 1024) (k : Fin 256) :
    V m c main_v18 (ix2 r k) = dxp (m ((c : Thread nD τ).loc main_arg0)) (m ((c : Thread nD τ).loc main_arg1)) r k := by
  refine (congrFun (V18_whole m c) (ix2 r k)).trans ?_
  rw [subf_apply, relu_at, relu_at]
  rfl

set_option maxRecDepth 8192 in
set_option maxHeartbeats 2000000 in
/-- As a whole array, buffer 19 at the region's entry is the difference of the negative parts of the two input endpoints. -/
theorem V19_whole (c : Dev nD) :
    (V m c main_v19 : S1024x256.Idx → EReal)
      = subf (minimumf (m ((c : Thread nD τ).loc main_arg1)) (broadcastInDim S1024x256 ![] bcast_S_S1024x256 (constant (F := Ideal) S_ .f32 0x00000000#32))) (minimumf (m ((c : Thread nD τ).loc main_arg0)) (broadcastInDim S1024x256 ![] bcast_S_S1024x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(r, k)` of buffer 19 is the upper endpoint's negative part minus the lower endpoint's. -/
theorem V19_at (c : Dev nD) (r : Fin 1024) (k : Fin 256) :
    V m c main_v19 (ix2 r k) = dxn (m ((c : Thread nD τ).loc main_arg0)) (m ((c : Thread nD τ).loc main_arg1)) r k := by
  refine (congrFun (V19_whole m c) (ix2 r k)).trans ?_
  rw [subf_apply, nrelu_at, nrelu_at]
  rfl

/-! ## The weight interval's endpoints, and their transposes -/

set_option maxRecDepth 8192 in
set_option maxHeartbeats 2000000 in
/-- As a whole array, buffer 4 at the region's entry is the weight centre minus the positive part of the lower spread. -/
theorem V4_whole (c : Dev nD) :
    (V m c main_v4 : S256x256.Idx → EReal)
      = subf (m ((c : Thread nD τ).loc main_arg2)) (maximumf (m ((c : Thread nD τ).loc main_arg3)) (broadcastInDim S256x256 ![] bcast_S_S256x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(k, j)` of buffer 4 is the weight interval's lower endpoint there. -/
theorem V4_at (c : Dev nD) (k j : Fin 256) :
    V m c main_v4 (ix2 k j) = wLo (m ((c : Thread nD τ).loc main_arg2)) (m ((c : Thread nD τ).loc main_arg3)) k j := by
  refine (congrFun (V4_whole m c) (ix2 k j)).trans ?_
  rw [subf_apply, relu_at]
  rfl

set_option maxRecDepth 8192 in
set_option maxHeartbeats 2000000 in
/-- As a whole array, buffer 5 at the region's entry is the weight centre plus the positive part of the upper spread. -/
theorem V5_whole (c : Dev nD) :
    (V m c main_v5 : S256x256.Idx → EReal)
      = addf (m ((c : Thread nD τ).loc main_arg2)) (maximumf (m ((c : Thread nD τ).loc main_arg4)) (broadcastInDim S256x256 ![] bcast_S_S256x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(k, j)` of buffer 5 is the weight interval's upper endpoint there. -/
theorem V5_at (c : Dev nD) (k j : Fin 256) :
    V m c main_v5 (ix2 k j) = wHi (m ((c : Thread nD τ).loc main_arg2)) (m ((c : Thread nD τ).loc main_arg4)) k j := by
  refine (congrFun (V5_whole m c) (ix2 k j)).trans ?_
  rw [addf_apply, relu_at]
  rfl

set_option maxRecDepth 8192 in
set_option maxHeartbeats 2000000 in
/-- As a whole array, buffer 20 at the region's entry is the transpose of the lower weight endpoint. -/
theorem V20_whole (c : Dev nD) :
    (V m c main_v20 : S256x256.Idx → EReal)
      = transpose S256x256 [1, 0] (subf (m ((c : Thread nD τ).loc main_arg2)) (maximumf (m ((c : Thread nD τ).loc main_arg3)) (broadcastInDim S256x256 ![] bcast_S_S256x256 (constant (F := Ideal) S_ .f32 0x00000000#32)))) transposes_S256x256_S256x256_1_0 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(j, k)` of buffer 20, the transpose, is the weight interval's lower endpoint at `(k, j)`. -/
theorem V20_at (c : Dev nD) (j k : Fin 256) :
    V m c main_v20 (ix2 j k) = wLo (m ((c : Thread nD τ).loc main_arg2)) (m ((c : Thread nD τ).loc main_arg3)) k j := by
  refine (congrFun (V20_whole m c) (ix2 j k)).trans ?_
  rw [transpose_ix2_apply, subf_apply, relu_at]
  rfl

set_option maxRecDepth 8192 in
set_option maxHeartbeats 2000000 in
/-- As a whole array, buffer 21 at the region's entry is the transpose of the upper weight endpoint. -/
theorem V21_whole (c : Dev nD) :
    (V m c main_v21 : S256x256.Idx → EReal)
      = transpose S256x256 [1, 0] (addf (m ((c : Thread nD τ).loc main_arg2)) (maximumf (m ((c : Thread nD τ).loc main_arg4)) (broadcastInDim S256x256 ![] bcast_S_S256x256 (constant (F := Ideal) S_ .f32 0x00000000#32)))) transposes_S256x256_S256x256_1_0 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(j, k)` of buffer 21, the transpose, is the weight interval's upper endpoint at `(k, j)`. -/
theorem V21_at (c : Dev nD) (j k : Fin 256) :
    V m c main_v21 (ix2 j k) = wHi (m ((c : Thread nD τ).loc main_arg2)) (m ((c : Thread nD τ).loc main_arg4)) k j := by
  refine (congrFun (V21_whole m c) (ix2 j k)).trans ?_
  rw [transpose_ix2_apply, addf_apply, relu_at]
  rfl

/-! ## The bias interval's endpoints -/

set_option maxRecDepth 8192 in
set_option maxHeartbeats 2000000 in
/-- As a whole array, buffer 6 at the region's entry is the bias centre minus the positive part of the lower spread. -/
theorem V6_whole (c : Dev nD) :
    (V m c main_v6 : S1x256.Idx → EReal)
      = subf (m ((c : Thread nD τ).loc main_arg5)) (maximumf (m ((c : Thread nD τ).loc main_arg6)) (broadcastInDim S1x256 ![] bcast_S_S1x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(0, j)` of buffer 6 is the bias interval's lower endpoint at `j`. -/
theorem V6_at (c : Dev nD) (j : Fin 256) :
    V m c main_v6 (ix2 (0 : Fin 1) j) = bLo (m ((c : Thread nD τ).loc main_arg5)) (m ((c : Thread nD τ).loc main_arg6)) j := by
  refine (congrFun (V6_whole m c) (ix2 (0 : Fin 1) j)).trans ?_
  rw [subf_apply, relu_at]
  rfl

set_option maxRecDepth 8192 in
set_option maxHeartbeats 2000000 in
/-- As a whole array, buffer 7 at the region's entry is the bias centre plus the positive part of the upper spread. -/
theorem V7_whole (c : Dev nD) :
    (V m c main_v7 : S1x256.Idx → EReal)
      = addf (m ((c : Thread nD τ).loc main_arg5)) (maximumf (m ((c : Thread nD τ).loc main_arg7)) (broadcastInDim S1x256 ![] bcast_S_S1x256 (constant (F := Ideal) S_ .f32 0x00000000#32))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Entry `(0, j)` of buffer 7 is the bias interval's upper endpoint at `j`. -/
theorem V7_at (c : Dev nD) (j : Fin 256) :
    V m c main_v7 (ix2 (0 : Fin 1) j) = bHi (m ((c : Thread nD τ).loc main_arg5)) (m ((c : Thread nD τ).loc main_arg7)) j := by
  refine (congrFun (V7_whole m c) (ix2 (0 : Fin 1) j)).trans ?_
  rw [addf_apply, relu_at]
  rfl

end Cert.KernelIdeal.HostPrefix

end
-- ==== Proof.Pieces.lean ====
/-
  What one grid point of the interval kernel leaves behind, as pure functions of what it loads.

  A grid point `(n, j, k)` loads eight 128 × 128 blocks — the sums and differences of the input endpoints'
  positive and negative parts (rows `n`, reduction block `k`), the two weight endpoints (reduction block `k`,
  columns `j`) and their transposes — and, at the last reduction block, two 1 × 128 bias rows.  It keeps two
  accumulators.  At the first reduction block it zeroes them and adds its contribution; at the last it adds its
  contribution and writes accumulator plus bias to the two outputs.  Each buffer a point writes is written by one
  whole-block store (after the zeroing store at the first block), so its final contents are that store's value,
  and every load of a buffer reads the block the point was handed, or, for an accumulator, what the store before
  the load left.  The six statements below record this for the two accumulators in both cases and for the two
  outputs in the writing case.
-/
import proofs.«176591_j82231443849327_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The two-element offset vector of zeros, in the form the unit-rectangle lemmas ask for. -/
theorem hz : (![0, 0] : Fin 2 → Nat) = fun _ => 0 := funext fun a => by fin_cases a <;> rfl

/-- One accumulation step of the lower accumulator: from the eight input blocks of a grid point and the
    accumulator's contents `acc`, the contents the point leaves — `acc` plus half of the two matrix products'
    sum minus half of the lane sums of absolute values. -/
def accLo (x0 x1 x2 x3 x4 x5 x6 x7 acc : Vec F S128x128 .f32) : Vec F S128x128 .f32 :=
  k0_pay1 (k0_pay11 x0 x4) (k0_pay12 x1 x5) (k0_pay19 x2 x3 x6 x7) acc

/-- One accumulation step of the upper accumulator: the same with the weight endpoints exchanged and the
    absolute-value term added. -/
def accHi (x0 x1 x2 x3 x4 x5 x6 x7 acc : Vec F S128x128 .f32) : Vec F S128x128 .f32 :=
  k0_pay2 (k0_pay13 x0 x5) (k0_pay14 x1 x4) (k0_pay15 x2) (k0_pay16 x3) (k0_pay17 x6) (k0_pay18 x7) acc
/-- First reduction block, lower accumulator: the zero block plus the point's contribution. -/
theorem sA0 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : cond0_0 i) (hc1 : ¬cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = accLo x0 x1 x2 x3 x4 x5 x6 x7 (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S128x128) hz]
  unfold accLo
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz, View.readCov_unit_zero (S := S128x128) _ hz]
/-- First reduction block, upper accumulator: the zero block plus the point's contribution. -/
theorem sA1 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : cond0_0 i) (hc1 : ¬cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = accHi x0 x1 x2 x3 x4 x5 x6 x7 (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S128x128) hz]
  unfold accHi
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz, View.readCov_unit_zero (S := S128x128) _ hz]
/-- Last reduction block, lower accumulator: what the point before left plus the point's contribution. -/
theorem sB0 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) (xs0 : Vec F S128x128 .f32) (xs1 : Vec F S128x128 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 = accLo x0 x1 x2 x3 x4 x5 x6 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1)]
  unfold kernelRun0_B
  dsimp only
  sl_unfold_words
  rw [View.canon_unit_zero (S := S128x128) hz]
  unfold accLo
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz]
/-- Last reduction block, upper accumulator: what the point before left plus the point's contribution. -/
theorem sB1 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) (xs0 : Vec F S128x128 .f32) (xs1 : Vec F S128x128 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 = accHi x0 x1 x2 x3 x4 x5 x6 x7 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1)]
  unfold kernelRun0_B
  dsimp only
  sl_unfold_words
  rw [View.canon_unit_zero (S := S128x128) hz]
  unfold accHi
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz]
/-- Last reduction block, lower output: the updated lower accumulator plus the lower bias row, broadcast over the rows. -/
theorem oB10 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) (xs0 : Vec F S128x128 .f32) (xs1 : Vec F S128x128 .f32) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 = k0_pay3 (accLo x0 x1 x2 x3 x4 x5 x6 x7 xs0) x8 := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1)]
  unfold kernelRun0_B
  dsimp only
  sl_unfold_words
  rw [View.canon_unit_zero (S := S128x128) hz, View.readCov_unit_zero (S := S128x128) _ hz]
  unfold accLo
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz, View.ld_unit_zero (S := S1x128) hz]
/-- Last reduction block, upper output: the updated upper accumulator plus the upper bias row, broadcast over the rows. -/
theorem oB11 (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (hc0 : ¬cond0_0 i) (hc1 : cond0_1 i) (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128 .f32) (x9 : Vec F S1x128 .f32) (xs0 : Vec F S128x128 .f32) (xs1 : Vec F S128x128 .f32) :
    out0_B_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 = k0_pay4 (accHi x0 x1 x2 x3 x4 x5 x6 x7 xs1) x9 := by
  unfold out0_B_11
  rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1)]
  unfold kernelRun0_B
  dsimp only
  sl_unfold_words
  rw [View.canon_unit_zero (S := S128x128) hz, View.readCov_unit_zero (S := S128x128) _ hz]
  unfold accHi
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S128x128) hz, View.ld_unit_zero (S := S1x128) hz]

end Cert.KernelIdeal.Pieces

end
-- ==== Proof.PayloadAt.lean ====
/-
  The interval kernel's per-point arithmetic read entry by entry, over the extended reals.

  For 128 × 128 blocks `a`, `b`: the matrix product into a zero block has entry `(p, q)` equal to
  `Σ_l a (p, l) * b (l, q)`; a 128 × 128 block viewed as 128 × 1 × 128 (or 1 × 128 × 128) and broadcast to
  128 × 128 × 128 has entry `(p, q, l)` equal to the block's `(p, l)` (or `(q, l)`); the sum over the last axis of
  a 128 × 128 × 128 block has entry `(p, q)` equal to `Σ_l` of its `(p, q, l)`; a 1 × 128 row broadcast over 128
  rows has entry `(p, q)` equal to the row's `(0, q)`.  Put together, one accumulation step of the lower
  accumulator adds to entry `(p, q)`
      half * (Σ_l x0 (p,l) * x4 (l,q) + Σ_l x1 (p,l) * x5 (l,q)) - half * Σ_l |x2 (p,l) * x6 (q,l) + x3 (p,l) * x7 (q,l)|,
  and of the upper accumulator
      half * (Σ_l x0 (p,l) * x5 (l,q) + Σ_l x1 (p,l) * x4 (l,q)) + half * Σ_l |x2 (p,l) * x7 (q,l) + x3 (p,l) * x6 (q,l)|,
  where `|y|` is `max y (-y)`; the output step adds the bias row's entry `(0, q)`.
-/
import proofs.«176591_j82231443849327_2_alg».proof.Proof.Pieces
import proofs.«176591_j82231443849327_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Cert.KernelIdeal.Pieces Idealize.ShloMosaic Idealize.ShloMosaic.ValueIdx

/-! ## The matrix product at an entry -/

/-- The left operand's index at output `i` and contraction position `q`: row of `i`, column `q`. -/
theorem lhs_0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
/-- The right operand's index: row `q`, column of `i`. -/
theorem rhs_0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem rhs_1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product of two 128 × 128 blocks into a zero block: entry `(p, q)` is `Σ_l a (p, l) * b (l, q)`. -/
theorem matmul_at (a b : FVec Ideal S128x128 .f32) (p q : Fin 128) :
    matmul dot_S128x128_S128x128_S128x128_1_0_0_1_n_n none a b (constant (F := Ideal) S128x128 .f32 0x00000000#32) (ix2 p q)
      = ∑ l : Fin 128, a (ix2 p l) * b (ix2 l q) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p q) ((ValueIdx.contrEquiv1 dot_S128x128_S128x128_S128x128_1_0_0_1_n_n 128 rfl rfl).symm k) = ix2 p k := funext fun a => Fin.ext (by
    match a with
    | ⟨0, _⟩ => exact lhs_0 _ _
    | ⟨1, _⟩ => exact (lhs_1 _ _).trans hk)
  have er : dot_S128x128_S128x128_S128x128_1_0_0_1_n_n.rhsIdx (ix2 p q) ((ValueIdx.contrEquiv1 dot_S128x128_S128x128_S128x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The sum over the last axis at an entry -/

/-- The sum over the last axis of a 128 × 128 × 128 block: entry `(p, q)` is `Σ_l v (p, q, l)`. -/
theorem laneSum_at (v : FVec Ideal S128x128x128 .f32) (p q : Fin 128) :
    multiReduction .add [2] S128x128 v 0x00000000#32 reduces_S128x128x128_S128x128 (.inl rfl) rfl (ix2 p q)
      = ∑ l : Fin 128, v (ix3 p q l) := by
  refine (Ideal.multiReduction_add_single v 0x00000000#32 reduces_S128x128x128_S128x128 (.inl rfl) rfl (ix2 p q)).trans ?_
  exact Finset.sum_congr rfl fun l _ => congrArg v (funext fun a => Fin.ext (by
    match a with
    | ⟨0, _⟩ => rfl
    | ⟨1, _⟩ => rfl
    | ⟨2, _⟩ => rfl))

/-! ## The re-laid blocks at an entry -/

/-- A 128 × 128 block viewed as 128 × 1 × 128: entry `(p, u, l)` is the block's `(p, l)`. -/
theorem col_at (x : FVec Ideal S128x128 .f32) (p : Fin 128) (u : Fin 1) (l : Fin 128) :
    shapeCast S128x1x128 x shapeCasts_S128x128_S128x1x128 (ix3 p u l) = x (ix2 p l) :=
  shapeCast_apply x _ _ _ (by
    have hu : u.val = 0 := by omega
    rw [Shape.rowMajor_val_two, Shape.rowMajor_val_three]
    show p.val * 128 + l.val = (p.val * 1 + u.val) * 128 + l.val
    rw [hu]; omega)

/-- A 128 × 128 block viewed as 1 × 128 × 128: entry `(u, q, l)` is the block's `(q, l)`. -/
theorem row_at (x : FVec Ideal S128x128 .f32) (u : Fin 1) (q l : Fin 128) :
    shapeCast S1x128x128 x shapeCasts_S128x128_S1x128x128 (ix3 u q l) = x (ix2 q l) :=
  shapeCast_ab_1ab_apply x _ u q l

/-- A 128 × 1 × 128 block broadcast along the middle axis: entry `(p, q, l)` is the block's `(p, 0, l)`. -/
theorem bcol_at (v : FVec Ideal S128x1x128 .f32) (p q l : Fin 128) :
    broadcastTo S128x128x128 v broadcasts_S128x1x128_S128x128x128 (ix3 p q l) = v (ix3 p (0 : Fin 1) l) :=
  broadcastTo_apply v _ _ _ fun ax => by
    match ax with
    | ⟨0, _⟩ => rfl
    | ⟨1, _⟩ => rfl
    | ⟨2, _⟩ => rfl

/-- A 1 × 128 × 128 block broadcast along the first axis: entry `(p, q, l)` is the block's `(0, q, l)`. -/
theorem brow_at (v : FVec Ideal S1x128x128 .f32) (p q l : Fin 128) :
    broadcastTo S128x128x128 v broadcasts_S1x128x128_S128x128x128 (ix3 p q l) = v (ix3 (0 : Fin 1) q l) :=
  broadcastTo_apply v _ _ _ fun ax => by
    match ax with
    | ⟨0, _⟩ => rfl
    | ⟨1, _⟩ => rfl
    | ⟨2, _⟩ => rfl

/-- A 1 × 128 row broadcast over 128 rows: entry `(p, q)` is the row's `(0, q)`. -/
theorem brow2_at (v : FVec Ideal S1x128 .f32) (p q : Fin 128) :
    broadcastTo S128x128 v broadcasts_S1x128_S128x128 (ix2 p q) = v (ix2 (0 : Fin 1) q) :=
  broadcastTo_1b_ab_apply v _ p q

/-! ## The absolute value at an entry -/

/-- The absolute value of a block, entry by entry: `max y (-y)`. -/
theorem absf_at {s : Shape} (v : FVec Ideal s .f32) (i : s.Idx) : absf v i = max (v i) (-(v i)) := rfl

/-! ## The argument of the absolute value -/

/-- The broadcast product sum `x2 ⊗ x6 + x3 ⊗ x7` at `(p, q, l)`: rows `p` of `x2`, `x3` against rows `q` of
    `x6`, `x7`, at position `l`. -/
theorem absArg_at (x2 x3 x6 x7 : FVec Ideal S128x128 .f32) (p q l : Fin 128) :
    k0_pay19 (F := Ideal) x2 x3 x6 x7 (ix3 p q l) = x2 (ix2 p l) * x6 (ix2 q l) + x3 (ix2 p l) * x7 (ix2 q l) := by
  unfold k0_pay19 k0_pay15 k0_pay16 k0_pay17 k0_pay18
  simp only [shapeCast_self, addf_apply, mulf_apply, bcol_at, brow_at, col_at, row_at]

/-- The lane sum of the absolute value of a 128 × 128 × 128 block whose entry `(p, q, l)` is `g l`. -/
theorem laneAbs_at (v : FVec Ideal S128x128x128 .f32) (p q : Fin 128) (g : Fin 128 → EReal)
    (hv : ∀ l : Fin 128, v (ix3 p q l) = g l) :
    multiReduction .add [2] S128x128 (absf v) 0x00000000#32 reduces_S128x128x128_S128x128 (.inl rfl) rfl (ix2 p q)
      = ∑ l : Fin 128, max (g l) (-(g l)) :=
  (laneSum_at (absf v) p q).trans (Finset.sum_congr rfl fun l _ => by rw [absf_at, hv l])

/-! ## One accumulation step at an entry -/

/-- The lower accumulator's step. -/
theorem accLo_at (x0 x1 x2 x3 x4 x5 x6 x7 acc : FVec Ideal S128x128 .f32) (p q : Fin 128) :
    accLo (F := Ideal) x0 x1 x2 x3 x4 x5 x6 x7 acc (ix2 p q)
      = acc (ix2 p q)
        + (Cert.Interval.half * ((∑ l : Fin 128, x0 (ix2 p l) * x4 (ix2 l q)) + (∑ l : Fin 128, x1 (ix2 p l) * x5 (ix2 l q)))
            - Cert.Interval.half * ∑ l : Fin 128, max (x2 (ix2 p l) * x6 (ix2 q l) + x3 (ix2 p l) * x7 (ix2 q l)) (-(x2 (ix2 p l) * x6 (ix2 q l) + x3 (ix2 p l) * x7 (ix2 q l)))) := by
  unfold accLo k0_pay1 k0_pay11 k0_pay12 k0_pay7 k0_pay8 k0_pay9 k0_pay10
  simp only [shapeCast_self, addf_apply, subf_apply, mulf_apply, broadcast_apply, matmul_at]
  exact congrArg (fun z => acc (ix2 p q) + (Cert.Interval.half * ((∑ l : Fin 128, x0 (ix2 p l) * x4 (ix2 l q)) + (∑ l : Fin 128, x1 (ix2 p l) * x5 (ix2 l q))) - Cert.Interval.half * z))
    (laneAbs_at (k0_pay19 (F := Ideal) x2 x3 x6 x7) p q _ (fun l => absArg_at x2 x3 x6 x7 p q l))

/-- The upper accumulator's step. -/
theorem accHi_at (x0 x1 x2 x3 x4 x5 x6 x7 acc : FVec Ideal S128x128 .f32) (p q : Fin 128) :
    accHi (F := Ideal) x0 x1 x2 x3 x4 x5 x6 x7 acc (ix2 p q)
      = acc (ix2 p q)
        + (Cert.Interval.half * ((∑ l : Fin 128, x0 (ix2 p l) * x5 (ix2 l q)) + (∑ l : Fin 128, x1 (ix2 p l) * x4 (ix2 l q)))
            + Cert.Interval.half * ∑ l : Fin 128, max (x2 (ix2 p l) * x7 (ix2 q l) + x3 (ix2 p l) * x6 (ix2 q l)) (-(x2 (ix2 p l) * x7 (ix2 q l) + x3 (ix2 p l) * x6 (ix2 q l)))) := by
  unfold accHi k0_pay2 k0_pay13 k0_pay14 k0_pay15 k0_pay16 k0_pay17 k0_pay18 k0_pay7 k0_pay8 k0_pay9 k0_pay10
  simp only [shapeCast_self, addf_apply, subf_apply, mulf_apply, broadcast_apply, matmul_at]
  exact congrArg (fun z => acc (ix2 p q) + (Cert.Interval.half * ((∑ l : Fin 128, x0 (ix2 p l) * x5 (ix2 l q)) + (∑ l : Fin 128, x1 (ix2 p l) * x4 (ix2 l q))) + Cert.Interval.half * z))
    (laneAbs_at _ p q (fun l => x2 (ix2 p l) * x7 (ix2 q l) + x3 (ix2 p l) * x6 (ix2 q l)) (fun l => by
      simp only [addf_apply, mulf_apply, bcol_at, brow_at, col_at, row_at]))

/-- The zero block an accumulator is reset to, at an entry. -/
theorem zeroLo_at (i : S128x128.Idx) : (k0_pay5 (F := Ideal)) i = 0 := by
  unfold k0_pay5
  simp only [shapeCast_self, broadcast_apply]
  exact Ideal.ofBits_zero_f32
theorem zeroHi_at (i : S128x128.Idx) : (k0_pay6 (F := Ideal)) i = 0 := by
  unfold k0_pay6
  simp only [shapeCast_self, broadcast_apply]
  exact Ideal.ofBits_zero_f32

/-- The output step: the accumulator's entry plus the bias row's entry of the same column. -/
theorem outLo_at (a : FVec Ideal S128x128 .f32) (b : FVec Ideal S1x128 .f32) (p q : Fin 128) :
    k0_pay3 (F := Ideal) a b (ix2 p q) = a (ix2 p q) + b (ix2 (0 : Fin 1) q) := by
  unfold k0_pay3
  simp only [shapeCast_self, addf_apply, brow2_at]
theorem outHi_at (a : FVec Ideal S128x128 .f32) (b : FVec Ideal S1x128 .f32) (p q : Fin 128) :
    k0_pay4 (F := Ideal) a b (ix2 p q) = a (ix2 p q) + b (ix2 (0 : Fin 1) q) := by
  unfold k0_pay4
  simp only [shapeCast_self, addf_apply, brow2_at]

/-! ## Two steps over zero, then the bias -/

/-- One step's contribution to the lower accumulator at `(p, q)`, from the point's eight blocks. -/
def stepLoE (x0 x1 x2 x3 x4 x5 x6 x7 : FVec Ideal S128x128 .f32) (p q : Fin 128) : EReal :=
  Cert.Interval.half * ((∑ l : Fin 128, x0 (ix2 p l) * x4 (ix2 l q)) + (∑ l : Fin 128, x1 (ix2 p l) * x5 (ix2 l q)))
      - Cert.Interval.half * ∑ l : Fin 128, max (x2 (ix2 p l) * x6 (ix2 q l) + x3 (ix2 p l) * x7 (ix2 q l)) (-(x2 (ix2 p l) * x6 (ix2 q l) + x3 (ix2 p l) * x7 (ix2 q l)))

/-- One step's contribution to the upper accumulator at `(p, q)`. -/
def stepHiE (x0 x1 x2 x3 x4 x5 x6 x7 : FVec Ideal S128x128 .f32) (p q : Fin 128) : EReal :=
  Cert.Interval.half * ((∑ l : Fin 128, x0 (ix2 p l) * x5 (ix2 l q)) + (∑ l : Fin 128, x1 (ix2 p l) * x4 (ix2 l q)))
      + Cert.Interval.half * ∑ l : Fin 128, max (x2 (ix2 p l) * x7 (ix2 q l) + x3 (ix2 p l) * x6 (ix2 q l)) (-(x2 (ix2 p l) * x7 (ix2 q l) + x3 (ix2 p l) * x6 (ix2 q l)))

/-- The lower output after a pair of points with blocks `x·` then `y·` and bias row `b`: zero, plus the first
    point's contribution, plus the second's, plus the bias entry. -/
theorem twoLo_at (x0 x1 x2 x3 x4 x5 x6 x7 y0 y1 y2 y3 y4 y5 y6 y7 : FVec Ideal S128x128 .f32) (b : FVec Ideal S1x128 .f32) (p q : Fin 128) :
    k0_pay3 (F := Ideal) (accLo (F := Ideal) y0 y1 y2 y3 y4 y5 y6 y7 (accLo (F := Ideal) x0 x1 x2 x3 x4 x5 x6 x7 (k0_pay5 (F := Ideal)))) b (ix2 p q)
      = ((0 + stepLoE x0 x1 x2 x3 x4 x5 x6 x7 p q) + stepLoE y0 y1 y2 y3 y4 y5 y6 y7 p q) + b (ix2 (0 : Fin 1) q) := by
  rw [outLo_at, accLo_at, accLo_at, zeroLo_at]
  rfl

/-- The upper output after a pair of points, likewise. -/
theorem twoHi_at (x0 x1 x2 x3 x4 x5 x6 x7 y0 y1 y2 y3 y4 y5 y6 y7 : FVec Ideal S128x128 .f32) (b : FVec Ideal S1x128 .f32) (p q : Fin 128) :
    k0_pay4 (F := Ideal) (accHi (F := Ideal) y0 y1 y2 y3 y4 y5 y6 y7 (accHi (F := Ideal) x0 x1 x2 x3 x4 x5 x6 x7 (k0_pay6 (F := Ideal)))) b (ix2 p q)
      = ((0 + stepHiE x0 x1 x2 x3 x4 x5 x6 x7 p q) + stepHiE y0 y1 y2 y3 y4 y5 y6 y7 p q) + b (ix2 (0 : Fin 1) q) := by
  rw [outHi_at, accHi_at, accHi_at, zeroHi_at]
  rfl

end Cert.KernelIdeal.PayloadAt

end
-- ==== Proof.BlockSpec.lean ====
/-
  The blocks a grid point of the interval kernel loads, entry by entry, as the specification's functions of
  the program's arguments.

  At point `T` — row block `T / 4`, column block `T / 2 % 2`, reduction block `kb = T % 2` — with `r` the row
  `128 * (T / 4) + p`, `col` the column `128 * (T / 2 % 2) + q` and `kIdx kb l` the reduction index
  `128 * kb + l`: the four input blocks hold, at `(p, l)`, the sums and differences `sxp, sxn, dxp, dxn` at
  `(r, kIdx kb l)`; the weight blocks hold, at `(l, q)`, the weight endpoints at `(kIdx kb l, col)`, and the
  transposed weight blocks hold the same numbers at `(q, l)`; the bias rows hold, at `(0, q)`, the bias
  endpoints at `col`.  Hence one step's contribution computed from the blocks is the specification's
  contribution of reduction block `kb`.
-/
import proofs.«176591_j82231443849327_2_alg».proof.Proof.Blocks
import proofs.«176591_j82231443849327_2_alg».proof.Proof.HostPrefix
import proofs.«176591_j82231443849327_2_alg».proof.Proof.PayloadAt
import proofs.«176591_j82231443849327_2_alg».proof.Proof.Spec

noncomputable section

namespace Cert.KernelIdeal.BlockSpec

open Cert.KernelIdeal Cert.KernelIdeal.Gen Cert.KernelIdeal.Blocks Cert.KernelIdeal.HostPrefix Cert.KernelIdeal.PayloadAt
open Idealize.ShloMosaic Idealize.ShloMosaic.TcCoe Idealize.ShloMosaic.ValueIdx Idealize.SL.Sem Cert.Interval

variable (m : (ℓ : Loc nD τ sig) → Buf (Elt Ideal) ℓ)

/-! ## The ten blocks -/

theorem X0 (c : Dev nD) (T : Fin cfg0.N) (p l : Fin 128) (r : Fin 1024) (kb : Fin 2)
    (hr : r.val = 128 * (T.val / 4) + p.val) (hkb : kb.val = T.val % 2) :
    (iblk m c 0 T : Vec Ideal S128x128 .f32) (ix2 p l) = sxp (m ((c : Thread nD τ).loc main_arg0)) (m ((c : Thread nD τ).loc main_arg1)) r (kIdx kb l) :=
  (iblk0_at m c T p l r (kIdx kb l) hr (by show 128 * kb.val + l.val = 128 * (T.val % 2) + l.val; rw [hkb])).trans (V16_at m c r (kIdx kb l))
theorem X1 (c : Dev nD) (T : Fin cfg0.N) (p l : Fin 128) (r : Fin 1024) (kb : Fin 2)
    (hr : r.val = 128 * (T.val / 4) + p.val) (hkb : kb.val = T.val % 2) :
    (iblk m c 1 T : Vec Ideal S128x128 .f32) (ix2 p l) = sxn (m ((c : Thread nD τ).loc main_arg0)) (m ((c : Thread nD τ).loc main_arg1)) r (kIdx kb l) :=
  (iblk1_at m c T p l r (kIdx kb l) hr (by show 128 * kb.val + l.val = 128 * (T.val % 2) + l.val; rw [hkb])).trans (V17_at m c r (kIdx kb l))
theorem X2 (c : Dev nD) (T : Fin cfg0.N) (p l : Fin 128) (r : Fin 1024) (kb : Fin 2)
    (hr : r.val = 128 * (T.val / 4) + p.val) (hkb : kb.val = T.val % 2) :
    (iblk m c 2 T : Vec Ideal S128x128 .f32) (ix2 p l) = dxp (m ((c : Thread nD τ).loc main_arg0)) (m ((c : Thread nD τ).loc main_arg1)) r (kIdx kb l) :=
  (iblk2_at m c T p l r (kIdx kb l) hr (by show 128 * kb.val + l.val = 128 * (T.val % 2) + l.val; rw [hkb])).trans (V18_at m c r (kIdx kb l))
theorem X3 (c : Dev nD) (T : Fin cfg0.N) (p l : Fin 128) (r : Fin 1024) (kb : Fin 2)
    (hr : r.val = 128 * (T.val / 4) + p.val) (hkb : kb.val = T.val % 2) :
    (iblk m c 3 T : Vec Ideal S128x128 .f32) (ix2 p l) = dxn (m ((c : Thread nD τ).loc main_arg0)) (m ((c : Thread nD τ).loc main_arg1)) r (kIdx kb l) :=
  (iblk3_at m c T p l r (kIdx kb l) hr (by show 128 * kb.val + l.val = 128 * (T.val % 2) + l.val; rw [hkb])).trans (V19_at m c r (kIdx kb l))
theorem X4 (c : Dev nD) (T : Fin cfg0.N) (l q : Fin 128) (col : Fin 256) (kb : Fin 2)
    (hc : col.val = 128 * (T.val / 2 % 2) + q.val) (hkb : kb.val = T.val % 2) :
    (iblk m c 4 T : Vec Ideal S128x128 .f32) (ix2 l q) = wLo (m ((c : Thread nD τ).loc main_arg2)) (m ((c : Thread nD τ).loc main_arg3)) (kIdx kb l) col :=
  (iblk4_at m c T l q (kIdx kb l) col (by show 128 * kb.val + l.val = 128 * (T.val % 2) + l.val; rw [hkb]) hc).trans (V4_at m c (kIdx kb l) col)
theorem X5 (c : Dev nD) (T : Fin cfg0.N) (l q : Fin 128) (col : Fin 256) (kb : Fin 2)
    (hc : col.val = 128 * (T.val / 2 % 2) + q.val) (hkb : kb.val = T.val % 2) :
    (iblk m c 5 T : Vec Ideal S128x128 .f32) (ix2 l q) = wHi (m ((c : Thread nD τ).loc main_arg2)) (m ((c : Thread nD τ).loc main_arg4)) (kIdx kb l) col :=
  (iblk5_at m c T l q (kIdx kb l) col (by show 128 * kb.val + l.val = 128 * (T.val % 2) + l.val; rw [hkb]) hc).trans (V5_at m c (kIdx kb l) col)
theorem X6 (c : Dev nD) (T : Fin cfg0.N) (q l : Fin 128) (col : Fin 256) (kb : Fin 2)
    (hc : col.val = 128 * (T.val / 2 % 2) + q.val) (hkb : kb.val = T.val % 2) :
    (iblk m c 6 T : Vec Ideal S128x128 .f32) (ix2 q l) = wLo (m ((c : Thread nD τ).loc main_arg2)) (m ((c : Thread nD τ).loc main_arg3)) (kIdx kb l) col :=
  (iblk6_at m c T q l col (kIdx kb l) hc (by show 128 * kb.val + l.val = 128 * (T.val % 2) + l.val; rw [hkb])).trans (V20_at m c col (kIdx kb l))
theorem X7 (c : Dev nD) (T : Fin cfg0.N) (q l : Fin 128) (col : Fin 256) (kb : Fin 2)
    (hc : col.val = 128 * (T.val / 2 % 2) + q.val) (hkb : kb.val = T.val % 2) :
    (iblk m c 7 T : Vec Ideal S128x128 .f32) (ix2 q l) = wHi (m ((c : Thread nD τ).loc main_arg2)) (m ((c : Thread nD τ).loc main_arg4)) (kIdx kb l) col :=
  (iblk7_at m c T q l col (kIdx kb l) hc (by show 128 * kb.val + l.val = 128 * (T.val % 2) + l.val; rw [hkb])).trans (V21_at m c col (kIdx kb l))
theorem X8 (c : Dev nD) (T : Fin cfg0.N) (q : Fin 128) (col : Fin 256)
    (hc : col.val = 128 * (T.val / 2 % 2) + q.val) :
    (iblk m c 8 T : Vec Ideal S1x128 .f32) (ix2 (0 : Fin 1) q) = bLo (m ((c : Thread nD τ).loc main_arg5)) (m ((c : Thread nD τ).loc main_arg6)) col :=
  (iblk8_at m c T (0 : Fin 1) q (0 : Fin 1) col rfl hc).trans (V6_at m c col)
theorem X9 (c : Dev nD) (T : Fin cfg0.N) (q : Fin 128) (col : Fin 256)
    (hc : col.val = 128 * (T.val / 2 % 2) + q.val) :
    (iblk m c 9 T : Vec Ideal S1x128 .f32) (ix2 (0 : Fin 1) q) = bHi (m ((c : Thread nD τ).loc main_arg5)) (m ((c : Thread nD τ).loc main_arg7)) col :=
  (iblk9_at m c T (0 : Fin 1) q (0 : Fin 1) col rfl hc).trans (V7_at m c col)

/-! ## One step's contribution from the blocks -/

/-- The lower accumulator's contribution computed from point `T`'s blocks is the specification's contribution of
    reduction block `kb = T % 2` at `(r, col)`. -/
theorem stepLo_block (c : Dev nD) (T : Fin cfg0.N) (p q : Fin 128) (r : Fin 1024) (col : Fin 256) (kb : Fin 2) (hr : r.val = 128 * (T.val / 4) + p.val) (hc : col.val = 128 * (T.val / 2 % 2) + q.val) (hkb : kb.val = T.val % 2) :
    stepLoE (iblk m c 0 T) (iblk m c 1 T) (iblk m c 2 T) (iblk m c 3 T) (iblk m c 4 T) (iblk m c 5 T) (iblk m c 6 T) (iblk m c 7 T) p q
      = stepLo (m ((c : Thread nD τ).loc main_arg0)) (m ((c : Thread nD τ).loc main_arg1)) (m ((c : Thread nD τ).loc main_arg2)) (m ((c : Thread nD τ).loc main_arg3)) (m ((c : Thread nD τ).loc main_arg4)) r col kb := by
  have e0 := fun l => X0 m c T p l r kb hr hkb
  have e1 := fun l => X1 m c T p l r kb hr hkb
  have e2 := fun l => X2 m c T p l r kb hr hkb
  have e3 := fun l => X3 m c T p l r kb hr hkb
  have e4 := fun l => X4 m c T l q col kb hc hkb
  have e5 := fun l => X5 m c T l q col kb hc hkb
  have e6 := fun l => X6 m c T q l col kb hc hkb
  have e7 := fun l => X7 m c T q l col kb hc hkb
  unfold stepLoE stepLo
  simp only [e0, e1, e2, e3, e4, e5, e6, e7]

/-- The upper accumulator's contribution likewise. -/
theorem stepHi_block (c : Dev nD) (T : Fin cfg0.N) (p q : Fin 128) (r : Fin 1024) (col : Fin 256) (kb : Fin 2) (hr : r.val = 128 * (T.val / 4) + p.val) (hc : col.val = 128 * (T.val / 2 % 2) + q.val) (hkb : kb.val = T.val % 2) :
    stepHiE (iblk m c 0 T) (iblk m c 1 T) (iblk m c 2 T) (iblk m c 3 T) (iblk m c 4 T) (iblk m c 5 T) (iblk m c 6 T) (iblk m c 7 T) p q
      = stepHi (m ((c : Thread nD τ).loc main_arg0)) (m ((c : Thread nD τ).loc main_arg1)) (m ((c : Thread nD τ).loc main_arg2)) (m ((c : Thread nD τ).loc main_arg3)) (m ((c : Thread nD τ).loc main_arg4)) r col kb := by
  have e0 := fun l => X0 m c T p l r kb hr hkb
  have e1 := fun l => X1 m c T p l r kb hr hkb
  have e2 := fun l => X2 m c T p l r kb hr hkb
  have e3 := fun l => X3 m c T p l r kb hr hkb
  have e4 := fun l => X4 m c T l q col kb hc hkb
  have e5 := fun l => X5 m c T l q col kb hc hkb
  have e6 := fun l => X6 m c T q l col kb hc hkb
  have e7 := fun l => X7 m c T q l col kb hc hkb
  unfold stepHiE stepHi
  simp only [e0, e1, e2, e3, e4, e5, e6, e7]

end Cert.KernelIdeal.BlockSpec

end
-- ==== Proof.PointValue.lean ====
/-
  What the interval kernel's accumulators and outputs hold after each grid point.

  Points come in pairs: an even point `2s` (first reduction block) resets both accumulators and adds its
  contribution; the odd point `2s + 1` (last reduction block) adds its contribution to what the even point left
  and writes accumulator plus bias to the outputs.  So after an even point an accumulator holds one step over
  zero, and after an odd point an output holds two steps over zero — the even point's blocks first, then the
  odd point's — plus the bias row.
-/
import proofs.«176591_j82231443849327_2_alg».proof.Proof.Pieces
import proofs.«176591_j82231443849327_2_alg».proof.Proof.Gen.KernelIdeal.Value

noncomputable section

namespace Cert.KernelIdeal.PointValue

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- After an even point the lower accumulator holds that point's step over the zero block. -/
theorem scratchLo_even (c : Dev nD) (n : ℕ) (hn : n < cfg0.N) (h0 : n % 2 = 0) :
    (outsAt0 m c n hn).2.2.1 = accLo (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (k0_pay5 (F := F)) := by
  have h1 : ¬ n % 2 = 1 := by omega
  rw [outsAt0_A m c ⟨n, hn⟩ h0 h1]
  exact sA0 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) (ms0_11 (⟨n, hn⟩ : Fin cfg0.N)) (hs0_11 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N))

/-- After an even point the upper accumulator holds that point's step over the zero block. -/
theorem scratchHi_even (c : Dev nD) (n : ℕ) (hn : n < cfg0.N) (h0 : n % 2 = 0) :
    (outsAt0 m c n hn).2.2.2 = accHi (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (k0_pay6 (F := F)) := by
  have h1 : ¬ n % 2 = 1 := by omega
  rw [outsAt0_A m c ⟨n, hn⟩ h0 h1]
  exact sA1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) (ms0_11 (⟨n, hn⟩ : Fin cfg0.N)) (hs0_11 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N))

/-- The point before an odd point. -/
theorem pred_lt (t : Fin cfg0.N) : t.val - 1 < cfg0.N := Nat.lt_of_le_of_lt (Nat.sub_le _ _) t.isLt

/-- After an odd point the lower output holds two steps over zero — the point before, then this point — plus
    this point's lower bias row. -/
theorem outLo_odd (c : Dev nD) (t : Fin cfg0.N) (h1 : t.val % 2 = 1) :
    (outsAt0 m c t.val t.isLt).1
      = k0_pay3 (accLo (iblk m c 0 t) (iblk m c 1 t) (iblk m c 2 t) (iblk m c 3 t) (iblk m c 4 t) (iblk m c 5 t) (iblk m c 6 t) (iblk m c 7 t) (accLo (iblk m c 0 (⟨t.val - 1, pred_lt t⟩ : Fin cfg0.N)) (iblk m c 1 (⟨t.val - 1, pred_lt t⟩ : Fin cfg0.N)) (iblk m c 2 (⟨t.val - 1, pred_lt t⟩ : Fin cfg0.N)) (iblk m c 3 (⟨t.val - 1, pred_lt t⟩ : Fin cfg0.N)) (iblk m c 4 (⟨t.val - 1, pred_lt t⟩ : Fin cfg0.N)) (iblk m c 5 (⟨t.val - 1, pred_lt t⟩ : Fin cfg0.N)) (iblk m c 6 (⟨t.val - 1, pred_lt t⟩ : Fin cfg0.N)) (iblk m c 7 (⟨t.val - 1, pred_lt t⟩ : Fin cfg0.N)) (k0_pay5 (F := F)))) (iblk m c 8 t) := by
  have h0 : ¬ t.val % 2 = 0 := by omega
  have hp : (t.val - 1) % 2 = 0 := by omega
  rw [outsAt0_B m c t h0 h1, ← scratchLo_even m c (t.val - 1) (pred_lt t) hp]
  exact oB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (pred_lt t)).2.2.1 (outsAt0 m c (t.val - 1) (pred_lt t)).2.2.2

/-- After an odd point the upper output holds two steps over zero plus this point's upper bias row. -/
theorem outHi_odd (c : Dev nD) (t : Fin cfg0.N) (h1 : t.val % 2 = 1) :
    (outsAt0 m c t.val t.isLt).2.1
      = k0_pay4 (accHi (iblk m c 0 t) (iblk m c 1 t) (iblk m c 2 t) (iblk m c 3 t) (iblk m c 4 t) (iblk m c 5 t) (iblk m c 6 t) (iblk m c 7 t) (accHi (iblk m c 0 (⟨t.val - 1, pred_lt t⟩ : Fin cfg0.N)) (iblk m c 1 (⟨t.val - 1, pred_lt t⟩ : Fin cfg0.N)) (iblk m c 2 (⟨t.val - 1, pred_lt t⟩ : Fin cfg0.N)) (iblk m c 3 (⟨t.val - 1, pred_lt t⟩ : Fin cfg0.N)) (iblk m c 4 (⟨t.val - 1, pred_lt t⟩ : Fin cfg0.N)) (iblk m c 5 (⟨t.val - 1, pred_lt t⟩ : Fin cfg0.N)) (iblk m c 6 (⟨t.val - 1, pred_lt t⟩ : Fin cfg0.N)) (iblk m c 7 (⟨t.val - 1, pred_lt t⟩ : Fin cfg0.N)) (k0_pay6 (F := F)))) (iblk m c 9 t) := by
  have h0 : ¬ t.val % 2 = 0 := by omega
  have hp : (t.val - 1) % 2 = 0 := by omega
  rw [outsAt0_B m c t h0 h1, ← scratchHi_even m c (t.val - 1) (pred_lt t) hp]
  exact oB11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (pred_lt t)).2.2.1 (outsAt0 m c (t.val - 1) (pred_lt t)).2.2.2

end Cert.KernelIdeal.PointValue

end
-- ==== Proof.Cover.lean ====
/-
  Which grid points write the interval kernel's outputs back, and that their blocks tile the outputs.

  An output block is written back exactly at the odd points (the last reduction block of each row-block /
  column-block pair).  The block of point `t` covers rows `128 * (t / 4) … + 127` and columns
  `128 * (t / 2 % 2) … + 127`; entry `(r, c)` of a 1024 × 256 output lies in the block of the odd point
  `4 * (r / 128) + 2 * (c / 128) + 1`.
-/
import proofs.«176591_j82231443849327_2_alg».proof.Proof.Blocks

noncomputable section

namespace Cert.KernelIdeal.Cover

open Cert.KernelIdeal Cert.KernelIdeal.Gen Cert.KernelIdeal.Blocks Idealize.ShloMosaic Idealize.ShloMosaic.TcCoe Idealize.SL.Sem

/-! ## Output window 10 -/

/-- Written back at the odd points, -/
theorem flush10_odd : ∀ t : Fin cfg0.N, t.val % 2 = 1 → (cfg0.win 10).flush t = true :=
  (by decide +kernel : ∀ t : Fin grid0.N, t.val % 2 = 1 → (cfg0.win 10).flush t = true)
/-- and only there. -/
theorem odd_of_flush10 : ∀ t : Fin cfg0.N, (cfg0.win 10).flush t = true → t.val % 2 = 1 :=
  (by decide +kernel : ∀ t : Fin grid0.N, (cfg0.win 10).flush t = true → t.val % 2 = 1)

/-- An index of the array is in point `t`'s block iff each coordinate is in the block's range on its axis. -/
theorem mem_blk10 (t : Fin cfg0.N) (i : S1024x256.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v22_0).slice (win0_10.rect t)).set ↔ _
  rw [View.set_slice_whole, Rect.mem_set_unit]
  exact Iff.rfl

/-- Every entry of the array lies in the block of a point that writes back. -/
theorem cover10 (i : S1024x256.Idx) : ∃ t : Fin cfg0.N, (cfg0.win 10).flush t = true ∧ i ∈ ((cfg0.win 10).blk t).view.set := by
  have hi0 : (i 0).val < 1024 := (i 0).isLt
  have hi1 : (i 1).val < 256 := (i 1).isLt
  have hN : cfg0.N = 32 := N_0
  refine ⟨⟨4 * ((i 0).val / 128) + 2 * ((i 1).val / 128) + 1, by rw [hN]; omega⟩, flush10_odd _ (by show (4 * ((i 0).val / 128) + 2 * ((i 1).val / 128) + 1) % 2 = 1; omega), ?_⟩
  rw [mem_blk10]
  obtain ⟨e0, e1⟩ := idx10 ⟨4 * ((i 0).val / 128) + 2 * ((i 1).val / 128) + 1, by rw [hN]; omega⟩
  intro a
  match a with
  | ⟨0, _⟩ =>
    show win0_10.index _ (0 : Fin 2) * 128 ≤ (i 0).val ∧ (i 0).val < win0_10.index _ (0 : Fin 2) * 128 + 128
    rw [e0]; show (4 * ((i 0).val / 128) + 2 * ((i 1).val / 128) + 1) / 4 * 128 ≤ (i 0).val ∧ (i 0).val < (4 * ((i 0).val / 128) + 2 * ((i 1).val / 128) + 1) / 4 * 128 + 128
    omega
  | ⟨1, _⟩ =>
    show win0_10.index _ (1 : Fin 2) * 128 ≤ (i 1).val ∧ (i 1).val < win0_10.index _ (1 : Fin 2) * 128 + 128
    rw [e1]; show (4 * ((i 0).val / 128) + 2 * ((i 1).val / 128) + 1) / 2 % 2 * 128 ≤ (i 1).val ∧ (i 1).val < (4 * ((i 0).val / 128) + 2 * ((i 1).val / 128) + 1) / 2 % 2 * 128 + 128
    omega

/-! ## Output window 11 -/

/-- Written back at the odd points, -/
theorem flush11_odd : ∀ t : Fin cfg0.N, t.val % 2 = 1 → (cfg0.win 11).flush t = true :=
  (by decide +kernel : ∀ t : Fin grid0.N, t.val % 2 = 1 → (cfg0.win 11).flush t = true)
/-- and only there. -/
theorem odd_of_flush11 : ∀ t : Fin cfg0.N, (cfg0.win 11).flush t = true → t.val % 2 = 1 :=
  (by decide +kernel : ∀ t : Fin grid0.N, (cfg0.win 11).flush t = true → t.val % 2 = 1)

/-- An index of the array is in point `t`'s block iff each coordinate is in the block's range on its axis. -/
theorem mem_blk11 (t : Fin cfg0.N) (i : S1024x256.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v22_1).slice (win0_11.rect t)).set ↔ _
  rw [View.set_slice_whole, Rect.mem_set_unit]
  exact Iff.rfl

/-- Every entry of the array lies in the block of a point that writes back. -/
theorem cover11 (i : S1024x256.Idx) : ∃ t : Fin cfg0.N, (cfg0.win 11).flush t = true ∧ i ∈ ((cfg0.win 11).blk t).view.set := by
  have hi0 : (i 0).val < 1024 := (i 0).isLt
  have hi1 : (i 1).val < 256 := (i 1).isLt
  have hN : cfg0.N = 32 := N_0
  refine ⟨⟨4 * ((i 0).val / 128) + 2 * ((i 1).val / 128) + 1, by rw [hN]; omega⟩, flush11_odd _ (by show (4 * ((i 0).val / 128) + 2 * ((i 1).val / 128) + 1) % 2 = 1; omega), ?_⟩
  rw [mem_blk11]
  obtain ⟨e0, e1⟩ := idx11 ⟨4 * ((i 0).val / 128) + 2 * ((i 1).val / 128) + 1, by rw [hN]; omega⟩
  intro a
  match a with
  | ⟨0, _⟩ =>
    show win0_11.index _ (0 : Fin 2) * 128 ≤ (i 0).val ∧ (i 0).val < win0_11.index _ (0 : Fin 2) * 128 + 128
    rw [e0]; show (4 * ((i 0).val / 128) + 2 * ((i 1).val / 128) + 1) / 4 * 128 ≤ (i 0).val ∧ (i 0).val < (4 * ((i 0).val / 128) + 2 * ((i 1).val / 128) + 1) / 4 * 128 + 128
    omega
  | ⟨1, _⟩ =>
    show win0_11.index _ (1 : Fin 2) * 128 ≤ (i 1).val ∧ (i 1).val < win0_11.index _ (1 : Fin 2) * 128 + 128
    rw [e1]; show (4 * ((i 0).val / 128) + 2 * ((i 1).val / 128) + 1) / 2 % 2 * 128 ≤ (i 1).val ∧ (i 1).val < (4 * ((i 0).val / 128) + 2 * ((i 1).val / 128) + 1) / 2 % 2 * 128 + 128
    omega

end Cert.KernelIdeal.Cover

end
-- ==== Proof.KernelValue.lean ====
/-
  The interval kernel's two output arrays after the run, as functions of the program's arguments.

  Every entry of an output lies in the block of exactly the odd grid points' write-backs; what an odd point
  writes back is, entry by entry, zero plus the contribution of reduction block 0 (computed by the even point
  before it) plus the contribution of reduction block 1 (its own) plus the bias — the specification's
  accumulated half-sum form at the entry's row and column.  Since those blocks tile the outputs, each output
  array is that form everywhere.
-/
import proofs.«176591_j82231443849327_2_alg».proof.Proof.BlockSpec
import proofs.«176591_j82231443849327_2_alg».proof.Proof.PointValue
import proofs.«176591_j82231443849327_2_alg».proof.Proof.Cover
import proofs.«176591_j82231443849327_2_alg».proof.Proof.Gen.KernelIdeal.Value

noncomputable section

namespace Cert.KernelIdeal.RefValue

open Cert.KernelIdeal Cert.KernelIdeal.Gen Cert.KernelIdeal.Blocks Cert.KernelIdeal.Cover Cert.KernelIdeal.PayloadAt Cert.KernelIdeal.BlockSpec
open Idealize.ShloMosaic Idealize.ShloMosaic.TcCoe Idealize.ShloMosaic.ValueIdx Idealize.SL.Sem Cert.Interval
open Idealize.ShloMosaic.Pipeline (Dat)

variable (m : (ℓ : Loc nD τ sig) → Buf (Elt Ideal) ℓ) (ρ : Dev nD → PrngReg)

/-! ## The lower output -/

/-- The lower output array in the accumulated half-sum form. -/
abbrev GLo (c : Dev nD) : Buf (Elt Ideal) ((c : Thread nD τ).loc main_v22_0) :=
  fun i => kerLoAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(i 0).val, (i 0).isLt⟩ ⟨(i 1).val, (i 1).isLt⟩

/-- After an odd point `t`, entry `y` of the lower output's block is the accumulated form at row
    `128 * (t / 4) + y 0` and column `128 * (t / 2 % 2) + y 1`: the even point before contributes reduction
    block 0, the odd point reduction block 1, and the bias row its entry of that column. -/
theorem blockLo_at (c : Dev nD) (t : Fin cfg0.N) (h1 : t.val % 2 = 1) (y : S128x128.Idx) (r : Fin 1024) (col : Fin 256)
    (hr : r.val = 128 * (t.val / 4) + (y 0).val) (hc : col.val = 128 * (t.val / 2 % 2) + (y 1).val) :
    (outsAt0 m c t.val t.isLt).1 y = kerLoAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r col := by
  obtain ⟨p, q, rfl⟩ : ∃ (p q : Fin 128), y = ix2 p q := ⟨y 0, y 1, eq_ix2 y⟩
  have hN : t.val < 32 := lt_of_lt_of_eq t.isLt N_0
  have hr' : r.val = 128 * ((⟨t.val - 1, PointValue.pred_lt t⟩ : Fin cfg0.N).val / 4) + p.val := by
    show r.val = 128 * ((t.val - 1) / 4) + p.val
    have : (t.val - 1) / 4 = t.val / 4 := by omega
    rw [this]; exact hr
  have hc' : col.val = 128 * ((⟨t.val - 1, PointValue.pred_lt t⟩ : Fin cfg0.N).val / 2 % 2) + q.val := by
    show col.val = 128 * ((t.val - 1) / 2 % 2) + q.val
    have : (t.val - 1) / 2 % 2 = t.val / 2 % 2 := by omega
    rw [this]; exact hc
  have hk0 : (0 : Fin 2).val = (⟨t.val - 1, PointValue.pred_lt t⟩ : Fin cfg0.N).val % 2 := by
    show 0 = (t.val - 1) % 2
    omega
  have hk1 : (1 : Fin 2).val = t.val % 2 := by
    show 1 = t.val % 2
    omega
  rw [PointValue.outLo_odd m c t h1]
  refine (twoLo_at (iblk m c 0 (⟨t.val - 1, PointValue.pred_lt t⟩ : Fin cfg0.N)) (iblk m c 1 (⟨t.val - 1, PointValue.pred_lt t⟩ : Fin cfg0.N)) (iblk m c 2 (⟨t.val - 1, PointValue.pred_lt t⟩ : Fin cfg0.N)) (iblk m c 3 (⟨t.val - 1, PointValue.pred_lt t⟩ : Fin cfg0.N)) (iblk m c 4 (⟨t.val - 1, PointValue.pred_lt t⟩ : Fin cfg0.N)) (iblk m c 5 (⟨t.val - 1, PointValue.pred_lt t⟩ : Fin cfg0.N)) (iblk m c 6 (⟨t.val - 1, PointValue.pred_lt t⟩ : Fin cfg0.N)) (iblk m c 7 (⟨t.val - 1, PointValue.pred_lt t⟩ : Fin cfg0.N)) (iblk m c 0 t) (iblk m c 1 t) (iblk m c 2 t) (iblk m c 3 t) (iblk m c 4 t) (iblk m c 5 t) (iblk m c 6 t) (iblk m c 7 t) (iblk m c 8 t) p q).trans ?_
  unfold kerLoAt
  rw [stepLo_block m c (⟨t.val - 1, PointValue.pred_lt t⟩ : Fin cfg0.N) p q r col 0 hr' hc' hk0, stepLo_block m c t p q r col 1 hr hc hk1, X8 m c t q col hc]

/-- What a point that writes back writes: the block of the accumulated form it covers. -/
theorem flushedLo_eq (c : Dev nD) (t : Fin cfg0.N) (hf : (cfg0.win 10).flush t = true) :
    (dats m 0 c).flushed 10 t = ((cfg0.win 10).blk t).view.read (Elt Ideal) (GLo m c) := by
  have h1 := odd_of_flush10 t hf
  obtain ⟨e0, e1⟩ := idx10 t
  rw [Value.flushed10]
  funext y
  rw [View.read_apply]
  show (outsAt0 m c t.val t.isLt).1 y = GLo m c (((cfg0.win 10).blk t).view.emb y)
  refine blockLo_at m c t h1 y _ _ ?_ ?_
  · show win0_10.index t (0 : Fin 2) * 128 + 1 * (y 0).val = 128 * (t.val / 4) + (y 0).val
    rw [e0]; omega
  · show win0_10.index t (1 : Fin 2) * 128 + 1 * (y 1).val = 128 * (t.val / 2 % 2) + (y 1).val
    rw [e1]; omega

/-- The lower output array after the run. -/
theorem finalLo (c : Dev nD) : (dats m 0 c).arrAt 10 cfg0.N = GLo m c :=
  (dats m 0 c).arrAt_eq_of_cover 10 (GLo m c) (fun t hf => flushedLo_eq m c t hf) cover10

/-! ## The upper output -/

/-- The upper output array in the accumulated half-sum form. -/
abbrev GHi (c : Dev nD) : Buf (Elt Ideal) ((c : Thread nD τ).loc main_v22_1) :=
  fun i => kerHiAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) ⟨(i 0).val, (i 0).isLt⟩ ⟨(i 1).val, (i 1).isLt⟩

/-- After an odd point `t`, entry `y` of the upper output's block is the accumulated form at row
    `128 * (t / 4) + y 0` and column `128 * (t / 2 % 2) + y 1`: the even point before contributes reduction
    block 0, the odd point reduction block 1, and the bias row its entry of that column. -/
theorem blockHi_at (c : Dev nD) (t : Fin cfg0.N) (h1 : t.val % 2 = 1) (y : S128x128.Idx) (r : Fin 1024) (col : Fin 256)
    (hr : r.val = 128 * (t.val / 4) + (y 0).val) (hc : col.val = 128 * (t.val / 2 % 2) + (y 1).val) :
    (outsAt0 m c t.val t.isLt).2.1 y = kerHiAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) r col := by
  obtain ⟨p, q, rfl⟩ : ∃ (p q : Fin 128), y = ix2 p q := ⟨y 0, y 1, eq_ix2 y⟩
  have hN : t.val < 32 := lt_of_lt_of_eq t.isLt N_0
  have hr' : r.val = 128 * ((⟨t.val - 1, PointValue.pred_lt t⟩ : Fin cfg0.N).val / 4) + p.val := by
    show r.val = 128 * ((t.val - 1) / 4) + p.val
    have : (t.val - 1) / 4 = t.val / 4 := by omega
    rw [this]; exact hr
  have hc' : col.val = 128 * ((⟨t.val - 1, PointValue.pred_lt t⟩ : Fin cfg0.N).val / 2 % 2) + q.val := by
    show col.val = 128 * ((t.val - 1) / 2 % 2) + q.val
    have : (t.val - 1) / 2 % 2 = t.val / 2 % 2 := by omega
    rw [this]; exact hc
  have hk0 : (0 : Fin 2).val = (⟨t.val - 1, PointValue.pred_lt t⟩ : Fin cfg0.N).val % 2 := by
    show 0 = (t.val - 1) % 2
    omega
  have hk1 : (1 : Fin 2).val = t.val % 2 := by
    show 1 = t.val % 2
    omega
  rw [PointValue.outHi_odd m c t h1]
  refine (twoHi_at (iblk m c 0 (⟨t.val - 1, PointValue.pred_lt t⟩ : Fin cfg0.N)) (iblk m c 1 (⟨t.val - 1, PointValue.pred_lt t⟩ : Fin cfg0.N)) (iblk m c 2 (⟨t.val - 1, PointValue.pred_lt t⟩ : Fin cfg0.N)) (iblk m c 3 (⟨t.val - 1, PointValue.pred_lt t⟩ : Fin cfg0.N)) (iblk m c 4 (⟨t.val - 1, PointValue.pred_lt t⟩ : Fin cfg0.N)) (iblk m c 5 (⟨t.val - 1, PointValue.pred_lt t⟩ : Fin cfg0.N)) (iblk m c 6 (⟨t.val - 1, PointValue.pred_lt t⟩ : Fin cfg0.N)) (iblk m c 7 (⟨t.val - 1, PointValue.pred_lt t⟩ : Fin cfg0.N)) (iblk m c 0 t) (iblk m c 1 t) (iblk m c 2 t) (iblk m c 3 t) (iblk m c 4 t) (iblk m c 5 t) (iblk m c 6 t) (iblk m c 7 t) (iblk m c 9 t) p q).trans ?_
  unfold kerHiAt
  rw [stepHi_block m c (⟨t.val - 1, PointValue.pred_lt t⟩ : Fin cfg0.N) p q r col 0 hr' hc' hk0, stepHi_block m c t p q r col 1 hr hc hk1, X9 m c t q col hc]

/-- What a point that writes back writes: the block of the accumulated form it covers. -/
theorem flushedHi_eq (c : Dev nD) (t : Fin cfg0.N) (hf : (cfg0.win 11).flush t = true) :
    (dats m 0 c).flushed 11 t = ((cfg0.win 11).blk t).view.read (Elt Ideal) (GHi m c) := by
  have h1 := odd_of_flush11 t hf
  obtain ⟨e0, e1⟩ := idx11 t
  rw [Value.flushed11]
  funext y
  rw [View.read_apply]
  show (outsAt0 m c t.val t.isLt).2.1 y = GHi m c (((cfg0.win 11).blk t).view.emb y)
  refine blockHi_at m c t h1 y _ _ ?_ ?_
  · show win0_11.index t (0 : Fin 2) * 128 + 1 * (y 0).val = 128 * (t.val / 4) + (y 0).val
    rw [e0]; omega
  · show win0_11.index t (1 : Fin 2) * 128 + 1 * (y 1).val = 128 * (t.val / 2 % 2) + (y 1).val
    rw [e1]; omega

/-- The upper output array after the run. -/
theorem finalHi (c : Dev nD) : (dats m 0 c).arrAt 11 cfg0.N = GHi m c :=
  (dats m 0 c).arrAt_eq_of_cover 11 (GHi m c) (fun t hf => flushedHi_eq m c t hf) cover11

/-! ## The run -/

/-- Every weakly fair execution of the idealized kernel program terminates with the two results at the accumulated
    half-sum form of the arguments, and the arguments unchanged. -/
theorem run : θ_run defs (onTc (τ := τ) (main (F := Ideal))) ⟨m, fun _ => 0, ρ⟩ fun r => ∀ c : Dev nD,
      r.2.mem ((c : Thread nD τ).loc main_v22_0) = GLo m c
      ∧ r.2.mem ((c : Thread nD τ).loc main_v22_1) = GHi m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (finalLo m c), (h c).2.1.trans (finalHi m c), (h c).2.2⟩)
    (Value.run_blocks m ρ)

end Cert.KernelIdeal.RefValue

end
-- ==== Proof.RefSpec.lean ====
/-
  The reference program's two results are the direct-form whole arrays of the specification.

  Reading the reference one operation at a time: the weight endpoints are the centre minus (plus) the positive
  part of a spread, the bias endpoints likewise; each of the four endpoint products is formed on the rank-3
  index set (row, reduction index, column) from operands broadcast along the missing axis; the least
  (greatest) of the four is summed over the reduction index starting from zero, and the bias endpoint,
  broadcast along the rows, is added last.  Over the extended reals every one of these operations is the
  extended reals' own, so the result at (row, column) is literally the direct form's value there.
-/
import proofs.«176591_j82231443849327_2_alg».proof.Proof.Gen.ReferenceIdeal.Read
import Idealize.ShloMosaic.PureOps.Ideal.Laws
import proofs.«176591_j82231443849327_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Interval

/-! ## Composed broadcast indices, by coordinates -/

/-- The rank-3 index (row, reduction index, column) read back through the two broadcasts of a left operand
    is (row, reduction index). -/
theorem idx_left0 (p : Fin 1024) (k q : Fin 256) : idx_main_v8 (idx_main_v11 (ix3 p k q)) = ix2 p k :=
  funext fun a => Fin.ext (by match a with | ⟨0, _⟩ => rfl | ⟨1, _⟩ => rfl)
theorem idx_left1 (p : Fin 1024) (k q : Fin 256) : idx_main_v8 (idx_main_v15 (ix3 p k q)) = ix2 p k :=
  funext fun a => Fin.ext (by match a with | ⟨0, _⟩ => rfl | ⟨1, _⟩ => rfl)
theorem idx_left2 (p : Fin 1024) (k q : Fin 256) : idx_main_v9 (idx_main_v19 (ix3 p k q)) = ix2 p k :=
  funext fun a => Fin.ext (by match a with | ⟨0, _⟩ => rfl | ⟨1, _⟩ => rfl)
theorem idx_left3 (p : Fin 1024) (k q : Fin 256) : idx_main_v9 (idx_main_v23 (ix3 p k q)) = ix2 p k :=
  funext fun a => Fin.ext (by match a with | ⟨0, _⟩ => rfl | ⟨1, _⟩ => rfl)

/-- The same index read back through the two broadcasts of a right operand is (reduction index, column). -/
theorem idx_right0 (p : Fin 1024) (k q : Fin 256) : idx_main_v10 (idx_main_v12 (ix3 p k q)) = ix2 k q :=
  funext fun a => Fin.ext (by match a with | ⟨0, _⟩ => rfl | ⟨1, _⟩ => rfl)
theorem idx_right1 (p : Fin 1024) (k q : Fin 256) : idx_main_v14 (idx_main_v16 (ix3 p k q)) = ix2 k q :=
  funext fun a => Fin.ext (by match a with | ⟨0, _⟩ => rfl | ⟨1, _⟩ => rfl)
theorem idx_right2 (p : Fin 1024) (k q : Fin 256) : idx_main_v18 (idx_main_v20 (ix3 p k q)) = ix2 k q :=
  funext fun a => Fin.ext (by match a with | ⟨0, _⟩ => rfl | ⟨1, _⟩ => rfl)
theorem idx_right3 (p : Fin 1024) (k q : Fin 256) : idx_main_v22 (idx_main_v24 (ix3 p k q)) = ix2 k q :=
  funext fun a => Fin.ext (by match a with | ⟨0, _⟩ => rfl | ⟨1, _⟩ => rfl)

/-- The summand index of the sum over the reduction axis at (row, column) is (row, reduction index, column). -/
theorem idx_sumLo (p : Fin 1024) (q k : Fin 256) : idx_main_v29 (ix2 p q) k = ix3 p k q :=
  funext fun a => Fin.ext (by match a with | ⟨0, _⟩ => rfl | ⟨1, _⟩ => rfl | ⟨2, _⟩ => rfl)
theorem idx_sumHi (p : Fin 1024) (q k : Fin 256) : idx_main_v35 (ix2 p q) k = ix3 p k q :=
  funext fun a => Fin.ext (by match a with | ⟨0, _⟩ => rfl | ⟨1, _⟩ => rfl | ⟨2, _⟩ => rfl)

/-- The bias row broadcast along the rows reads its single row at the column. -/
theorem idx_biasLo (p : Fin 1024) (q : Fin 256) : idx_main_v30 (ix2 p q) = ix2 (0 : Fin 1) q :=
  funext fun a => Fin.ext (by match a with | ⟨0, _⟩ => rfl | ⟨1, _⟩ => rfl)
theorem idx_biasHi (p : Fin 1024) (q : Fin 256) : idx_main_v36 (ix2 p q) = ix2 (0 : Fin 1) q :=
  funext fun a => Fin.ext (by match a with | ⟨0, _⟩ => rfl | ⟨1, _⟩ => rfl)

/-! ## The interval endpoints the reference forms -/

section Endpoints
variable (x2 x3 x4 : (⟨Cert.ReferenceIdeal.S256x256, .f32⟩ : BufTy).Contents (Elt Ideal))
variable (x5 x6 x7 : (⟨Cert.ReferenceIdeal.S1x256, .f32⟩ : BufTy).Contents (Elt Ideal))

/-- Centre minus the positive part of the lower spread: the weight interval's lower endpoint. -/
theorem wLo_read (k j : Fin 256) : val_main_v4 (F := Ideal) x2 x3 (ix2 k j) = wLo x2 x3 k j := by
  rw [val_main_v4_apply, val_main_v0_apply, val_main_call0_v0_apply, val_main_call0_cst_apply]
  simp only [Ideal.subf_def, Ideal.maximumf_def, Ideal.ofBits_def, Ideal.ofBits_zero_f32]
  rfl

/-- Centre plus the positive part of the upper spread: the weight interval's upper endpoint. -/
theorem wHi_read (k j : Fin 256) : val_main_v5 (F := Ideal) x2 x4 (ix2 k j) = wHi x2 x4 k j := by
  rw [val_main_v5_apply, val_main_v1_apply, val_main_call1_v0_apply, val_main_call1_cst_apply]
  simp only [Ideal.addf_def, Ideal.maximumf_def, Ideal.ofBits_def, Ideal.ofBits_zero_f32]
  rfl

/-- The bias interval's lower endpoint. -/
theorem bLo_read (j : Fin 256) : val_main_v6 (F := Ideal) x5 x6 (ix2 (0 : Fin 1) j) = bLo x5 x6 j := by
  rw [val_main_v6_apply, val_main_v2_apply, val_main_call2_v0_apply, val_main_call2_cst_apply]
  simp only [Ideal.subf_def, Ideal.maximumf_def, Ideal.ofBits_def, Ideal.ofBits_zero_f32]
  rfl

/-- The bias interval's upper endpoint. -/
theorem bHi_read (j : Fin 256) : val_main_v7 (F := Ideal) x5 x7 (ix2 (0 : Fin 1) j) = bHi x5 x7 j := by
  rw [val_main_v7_apply, val_main_v3_apply, val_main_call3_v0_apply, val_main_call3_cst_apply]
  simp only [Ideal.addf_def, Ideal.maximumf_def, Ideal.ofBits_def, Ideal.ofBits_zero_f32]
  rfl

end Endpoints

/-! ## The four endpoint products at (row, reduction index, column) -/

section Products
variable (x0 x1 : (⟨Cert.ReferenceIdeal.S1024x256, .f32⟩ : BufTy).Contents (Elt Ideal))
variable (x2 x3 x4 : (⟨Cert.ReferenceIdeal.S256x256, .f32⟩ : BufTy).Contents (Elt Ideal))

/-- Lower input endpoint times lower weight endpoint. -/
theorem prod_ll (p : Fin 1024) (k q : Fin 256) :
    val_main_v13 (F := Ideal) x0 x2 x3 (ix3 p k q) = x0 (ix2 p k) * wLo x2 x3 k q := by
  rw [val_main_v13_apply, val_main_v11_apply, val_main_v8_apply, val_main_v12_apply, val_main_v10_apply,
    idx_left0, idx_right0, wLo_read]
  rfl

/-- Lower input endpoint times upper weight endpoint. -/
theorem prod_lh (p : Fin 1024) (k q : Fin 256) :
    val_main_v17 (F := Ideal) x0 x2 x4 (ix3 p k q) = x0 (ix2 p k) * wHi x2 x4 k q := by
  rw [val_main_v17_apply, val_main_v15_apply, val_main_v8_apply, val_main_v16_apply, val_main_v14_apply,
    idx_left1, idx_right1, wHi_read]
  rfl

/-- Upper input endpoint times lower weight endpoint. -/
theorem prod_hl (p : Fin 1024) (k q : Fin 256) :
    val_main_v21 (F := Ideal) x1 x2 x3 (ix3 p k q) = x1 (ix2 p k) * wLo x2 x3 k q := by
  rw [val_main_v21_apply, val_main_v19_apply, val_main_v9_apply, val_main_v20_apply, val_main_v18_apply,
    idx_left2, idx_right2, wLo_read]
  rfl

/-- Upper input endpoint times upper weight endpoint. -/
theorem prod_hh (p : Fin 1024) (k q : Fin 256) :
    val_main_v25 (F := Ideal) x1 x2 x4 (ix3 p k q) = x1 (ix2 p k) * wHi x2 x4 k q := by
  rw [val_main_v25_apply, val_main_v23_apply, val_main_v9_apply, val_main_v24_apply, val_main_v22_apply,
    idx_left3, idx_right3, wHi_read]
  rfl

end Products

/-! ## The two results -/

/-- The reference's lower result is the direct form's lower output, as whole arrays. -/
theorem lo_eq (x0 x1 : (⟨Cert.ReferenceIdeal.S1024x256, .f32⟩ : BufTy).Contents (Elt Ideal))
    (x2 x3 x4 : (⟨Cert.ReferenceIdeal.S256x256, .f32⟩ : BufTy).Contents (Elt Ideal))
    (x5 x6 : (⟨Cert.ReferenceIdeal.S1x256, .f32⟩ : BufTy).Contents (Elt Ideal)) :
    Cert.ReferenceIdeal.Read.val_main_v31 (F := Ideal) x0 x1 x2 x3 x4 x5 x6 = Cert.Interval.outLo x0 x1 x2 x3 x4 x5 x6 := by
  funext i
  obtain ⟨p, q, rfl⟩ : ∃ (p : Fin 1024) (q : Fin 256), i = ix2 p q := ⟨i 0, i 1, eq_ix2 i⟩
  rw [val_main_v31_apply, val_main_v29_apply, val_main_v30_apply, val_main_cst_apply, idx_biasLo, bLo_read]
  simp only [Ideal.addf_def, Ideal.ofBits_def, Ideal.ofBits_zero_f32]
  show _ = refLoAt x0 x1 x2 x3 x4 x5 x6 p q
  unfold refLoAt
  refine congrArg (· + bLo x5 x6 q) (congrArg (0 + ·) (Finset.sum_congr rfl fun k _ => ?_))
  rw [idx_sumLo, val_main_v28_apply, val_main_v26_apply, val_main_v27_apply, prod_ll, prod_lh, prod_hl, prod_hh]
  rfl

/-- The reference's upper result is the direct form's upper output, as whole arrays. -/
theorem hi_eq (x0 x1 : (⟨Cert.ReferenceIdeal.S1024x256, .f32⟩ : BufTy).Contents (Elt Ideal))
    (x2 x3 x4 : (⟨Cert.ReferenceIdeal.S256x256, .f32⟩ : BufTy).Contents (Elt Ideal))
    (x5 x7 : (⟨Cert.ReferenceIdeal.S1x256, .f32⟩ : BufTy).Contents (Elt Ideal)) :
    Cert.ReferenceIdeal.Read.val_main_v37 (F := Ideal) x0 x1 x2 x3 x4 x5 x7 = Cert.Interval.outHi x0 x1 x2 x3 x4 x5 x7 := by
  funext i
  obtain ⟨p, q, rfl⟩ : ∃ (p : Fin 1024) (q : Fin 256), i = ix2 p q := ⟨i 0, i 1, eq_ix2 i⟩
  rw [val_main_v37_apply, val_main_v35_apply, val_main_v36_apply, val_main_cst_0_apply, idx_biasHi, bHi_read]
  simp only [Ideal.addf_def, Ideal.ofBits_def, Ideal.ofBits_zero_f32]
  show _ = refHiAt x0 x1 x2 x3 x4 x5 x7 p q
  unfold refHiAt
  refine congrArg (· + bHi x5 x7 q) (congrArg (0 + ·) (Finset.sum_congr rfl fun k _ => ?_))
  rw [idx_sumHi, val_main_v34_apply, val_main_v32_apply, val_main_v33_apply, prod_ll, prod_lh, prod_hl, prod_hh]
  rfl

end Cert.ReferenceIdeal.RefValue

end
-- ==== Proof.Finite.lean ====
/-
  The finiteness precondition gives real entries.

  The precondition tests, for each of the eight input arrays, that every entry's absolute value is strictly
  below the pattern of positive infinity, and conjoins the eight tests.  Over the extended reals the absolute
  value of x is max x (-x) and that pattern denotes the top element; an extended real whose absolute value is
  below the top element is neither of the two infinities, hence the image of a real number.  So when the
  precondition's result is the bit 1, each input array is entrywise the image of a real array.
-/
import proofs.«176591_j82231443849327_2_alg».proof.Pre_finite_inputs
import proofs.«176591_j82231443849327_2_alg».proof.Proof.Gen.Pre_finite_inputs
import Idealize.ShloMosaic.Lib.ReduceAll
import proofs.«176591_j82231443849327_2_alg».proof.Proof.Spec

noncomputable section

namespace Cert.Interval

open Idealize.ShloMosaic Idealize.ShloMosaic.ValueIdx

/-- The rank-0 shape has exactly one index. -/
instance subsingleton_scalarIdx : Subsingleton (⟨0, ![]⟩ : Shape).Idx := ⟨fun _ _ => funext fun d => d.elim0⟩

/-- The pattern with all exponent bits set and no fraction bit denotes the top element. -/
theorem posInf_eq_top : Ideal.ofBits .f32 0x7F800000#32 = (⊤ : EReal) := by
  simp [Ideal.ofBits, Ideal.ieee]

/-- An extended real whose absolute value max x (-x) tests strictly below positive infinity is a real number. -/
theorem real_of_abs_lt (x : EReal)
    (h : Ideal.cmp .olt (max x (-x)) (Ideal.ofBits .f32 0x7F800000#32) = 1#1) : ∃ r : ℝ, x = ((r : ℝ) : EReal) := by
  rw [posInf_eq_top] at h
  have hlt : max x (-x) < ⊤ := by
    by_contra hn
    simp [Ideal.cmp, hn] at h
  induction x using EReal.rec with
  | bot => simp at hlt
  | coe r => exact ⟨r, rfl⟩
  | top => simp at hlt

/-- One test of the precondition: if the conjunction over all entries of "absolute value below positive
    infinity" is the bit 1, the array is entrywise real. -/
theorem isReal_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (init : (⟨0, ![]⟩ : Shape).Idx → BitVec 1) (j : (⟨0, ![]⟩ : Shape).Idx)
    (e : Host.reduce IntOp.andi
          (cmpf .olt (Host.absf x) (broadcastInDim s ![] hb (constant (F := Ideal) ⟨0, ![]⟩ .f32 0x7F800000#32)))
          init hr hu j = 1#1) :
    IsReal x := by
  have hall := Host.reduce_andi_all _ init hr hu j e
  have hreal : ∀ i, ∃ r : ℝ, x i = ((r : ℝ) : EReal) := fun i => real_of_abs_lt (x i) (hall i)
  choose f hf using hreal
  exact ⟨f, funext hf⟩

/-- A conjunction of two one-bit arrays at an index is the conjunction of the bits. -/
theorem andi_apply {s : Shape} {w : Nat} (a b : IVec s w) (i : s.Idx) : andi a b i = IntOp.andi (a i) (b i) := rfl

/-- The precondition decoded: when its result is the bit 1, all eight inputs are entrywise real. -/
theorem isReal_of_pre [Cert.Pre_finite_inputs.Facts]
    (x0 x1 : FVec Ideal Cert.Pre_finite_inputs.S1024x256 .f32) (x2 x3 x4 : FVec Ideal Cert.Pre_finite_inputs.S256x256 .f32)
    (x5 x6 x7 : FVec Ideal Cert.Pre_finite_inputs.S1x256 .f32)
    (h : Cert.Pre_finite_inputs.fn (F := Ideal) x0 x1 x2 x3 x4 x5 x6 x7 = fun _ => 1#1) :
    IsReal x0 ∧ IsReal x1 ∧ IsReal x2 ∧ IsReal x3 ∧ IsReal x4 ∧ IsReal x5 ∧ IsReal x6 ∧ IsReal x7 := by
  have e := congrFun h ValueIdx.ix0
  dsimp only [Cert.Pre_finite_inputs.fn, Cert.Pre_finite_inputs.fn_part1, Cert.Pre_finite_inputs.fn_part2] at e
  simp only [andi_apply, IntOp.andi_eq_one] at e
  obtain ⟨⟨⟨⟨⟨⟨⟨h0, h1⟩, h2⟩, h3⟩, h4⟩, h5⟩, h6⟩, h7⟩ := e
  exact ⟨isReal_of_all x0 _ _ _ _ _ h0, isReal_of_all x1 _ _ _ _ _ h1, isReal_of_all x2 _ _ _ _ _ h2,
    isReal_of_all x3 _ _ _ _ _ h3, isReal_of_all x4 _ _ _ _ _ h4, isReal_of_all x5 _ _ _ _ _ h5,
    isReal_of_all x6 _ _ _ _ _ h6, isReal_of_all x7 _ _ _ _ _ h7⟩

end Cert.Interval

end
-- ==== Proof.IntervalReal.lean ====
/-
  The scalar identities behind the interval product, over the real numbers.

  For a weight interval `wl ≤ wr` and any real `x`, write `x⁺ = max x 0` and `x⁻ = min x 0`.  Then
  the smaller of the two endpoint products `x * wl`, `x * wr` is `x⁺ * wl + x⁻ * wr` and the larger is
  `x⁺ * wr + x⁻ * wl`: a nonnegative factor picks the matching endpoint, a nonpositive one the opposite
  endpoint, and one of `x⁺`, `x⁻` is zero.  A minimum (maximum) of two numbers is half their sum minus
  (plus) half the absolute value of their difference.  Together these give the four-product minimum and
  maximum in the "half sum ∓ half absolute difference" form, with no ordering assumed between the two
  input endpoints.
-/
import Mathlib

namespace Cert.IntervalReal

/-- The smaller endpoint product: `min (x·wl) (x·wr) = x⁺·wl + x⁻·wr` when `wl ≤ wr`. -/
theorem min_mul_endpoints (x wl wr : ℝ) (h : wl ≤ wr) :
    min (x * wl) (x * wr) = max x 0 * wl + min x 0 * wr := by
  rcases le_total 0 x with hx | hx
  · rw [max_eq_left hx, min_eq_right hx, zero_mul, add_zero]
    exact min_eq_left (mul_le_mul_of_nonneg_left h hx)
  · rw [max_eq_right hx, min_eq_left hx, zero_mul, zero_add]
    exact min_eq_right (mul_le_mul_of_nonpos_left h hx)

/-- The larger endpoint product: `max (x·wl) (x·wr) = x⁺·wr + x⁻·wl` when `wl ≤ wr`. -/
theorem max_mul_endpoints (x wl wr : ℝ) (h : wl ≤ wr) :
    max (x * wl) (x * wr) = max x 0 * wr + min x 0 * wl := by
  rcases le_total 0 x with hx | hx
  · rw [max_eq_left hx, min_eq_right hx, zero_mul, add_zero]
    exact max_eq_right (mul_le_mul_of_nonneg_left h hx)
  · rw [max_eq_right hx, min_eq_left hx, zero_mul, zero_add]
    exact max_eq_left (mul_le_mul_of_nonpos_left h hx)

/-- A minimum is half the sum minus half the absolute difference. -/
theorem min_eq_half (a b : ℝ) : min a b = (1 / 2) * (a + b) - (1 / 2) * |b - a| := by
  rcases le_total a b with h | h
  · rw [min_eq_left h, abs_of_nonneg (sub_nonneg.2 h)]; ring
  · rw [min_eq_right h, abs_of_nonpos (sub_nonpos.2 h)]; ring

/-- A maximum is half the sum plus half the absolute difference. -/
theorem max_eq_half (a b : ℝ) : max a b = (1 / 2) * (a + b) + (1 / 2) * |b - a| := by
  rcases le_total a b with h | h
  · rw [max_eq_right h, abs_of_nonneg (sub_nonneg.2 h)]; ring
  · rw [max_eq_left h, abs_of_nonpos (sub_nonpos.2 h)]; ring

/-- The four-product minimum of the interval product `[xl, xr] · [wl, wr]`, with `wl ≤ wr`:
    half of `(xl⁺ + xr⁺)·wl + (xl⁻ + xr⁻)·wr` minus half of `|(xr⁺ − xl⁺)·wl + (xr⁻ − xl⁻)·wr|`. -/
theorem min4 (xl xr wl wr : ℝ) (h : wl ≤ wr) :
    min (min (xl * wl) (xl * wr)) (min (xr * wl) (xr * wr))
      = (1 / 2) * ((max xl 0 + max xr 0) * wl + (min xl 0 + min xr 0) * wr)
        - (1 / 2) * |(max xr 0 - max xl 0) * wl + (min xr 0 - min xl 0) * wr| := by
  rw [min_mul_endpoints xl wl wr h, min_mul_endpoints xr wl wr h, min_eq_half]
  congr 2
  · ring
  · congr 1; ring

/-- The four-product maximum of the interval product, in the same form. -/
theorem max4 (xl xr wl wr : ℝ) (h : wl ≤ wr) :
    max (max (xl * wl) (xl * wr)) (max (xr * wl) (xr * wr))
      = (1 / 2) * ((max xl 0 + max xr 0) * wr + (min xl 0 + min xr 0) * wl)
        + (1 / 2) * |(max xr 0 - max xl 0) * wr + (min xr 0 - min xl 0) * wl| := by
  rw [max_mul_endpoints xl wl wr h, max_mul_endpoints xr wl wr h, max_eq_half]
  congr 2
  · ring
  · congr 1; ring

end Cert.IntervalReal
-- ==== Proof.IntervalAlgebra.lean ====
/-
  The half-sum form of the interval dense layer equals the direct form when every entry is a real number.

  The weight interval is ordered: its lower endpoint subtracts a nonnegative spread from the centre and its
  upper endpoint adds one.  For an ordered weight interval the least (greatest) of the four endpoint products
  is half of a sum minus (plus) half of an absolute value, with no ordering needed between the two input
  endpoints.  Summing this over the reduction axis, cut into its two blocks of 128, turns the direct form into
  the half-sum form.  All of it happens among real numbers; the extended reals only carry the coercion.
-/
import Mathlib
import proofs.«176591_j82231443849327_2_alg».proof.Proof.Spec
import proofs.«176591_j82231443849327_2_alg».proof.Proof.IntervalReal

noncomputable section

namespace Cert.Interval

open Idealize.ShloMosaic Idealize.ShloMosaic.ValueIdx

/-! ## Moving the coercion from the reals outward -/

/-- The coercion commutes with the maximum. -/
theorem coe_max' (a b : ℝ) : max (a : EReal) (b : EReal) = ((max a b : ℝ) : EReal) :=
  (EReal.coe_strictMono.monotone.map_max).symm

/-- The coercion commutes with the minimum. -/
theorem coe_min' (a b : ℝ) : min (a : EReal) (b : EReal) = ((min a b : ℝ) : EReal) :=
  (EReal.coe_strictMono.monotone.map_min).symm

/-- The positive part of a real number, taken among the extended reals. -/
theorem coe_max_zero (a : ℝ) : max (a : EReal) 0 = ((max a 0 : ℝ) : EReal) := coe_max' a 0

/-- The negative part of a real number, taken among the extended reals. -/
theorem coe_min_zero (a : ℝ) : min (a : EReal) 0 = ((min a 0 : ℝ) : EReal) := coe_min' a 0

/-- The coercion commutes with finite sums. -/
theorem coe_sum' {ι : Type} (s : Finset ι) (f : ι → ℝ) :
    ∑ i ∈ s, ((f i : ℝ) : EReal) = ((∑ i ∈ s, f i : ℝ) : EReal) := by
  classical
  induction s using Finset.induction_on with
  | empty => simp
  | @insert a s ha ih => rw [Finset.sum_insert ha, Finset.sum_insert ha, ih, EReal.coe_add]

/-! ## The reduction axis as two blocks -/

/-- A sum over the 256 reduction indices is the sum over block 0 plus the sum over block 1. -/
theorem sum_blocks (g : Fin 256 → ℝ) :
    ∑ k, g k = ∑ kk : Fin 128, g (kIdx 0 kk) + ∑ kk : Fin 128, g (kIdx 1 kk) := by
  refine (Fin.sum_univ_add (a := 128) (b := 128) g).trans ?_
  congr 1 <;> exact Finset.sum_congr rfl fun kk _ => congrArg g (Fin.ext (by simp [kIdx]))

/-! ## The identity among real numbers -/

/-- Block `kb`'s half-sum contribution to the lower output over the reals, for one row `xl, xr` of the input
    endpoints and one column `wl, wr` of the weight endpoints. -/
def blockLo (xl xr wl wr : Fin 256 → ℝ) (kb : Fin 2) : ℝ :=
  1 / 2 * ((∑ kk : Fin 128, (max (xl (kIdx kb kk)) 0 + max (xr (kIdx kb kk)) 0) * wl (kIdx kb kk))
            + ∑ kk : Fin 128, (min (xl (kIdx kb kk)) 0 + min (xr (kIdx kb kk)) 0) * wr (kIdx kb kk))
    - 1 / 2 * ∑ kk : Fin 128,
        max ((max (xr (kIdx kb kk)) 0 - max (xl (kIdx kb kk)) 0) * wl (kIdx kb kk)
              + (min (xr (kIdx kb kk)) 0 - min (xl (kIdx kb kk)) 0) * wr (kIdx kb kk))
            (-((max (xr (kIdx kb kk)) 0 - max (xl (kIdx kb kk)) 0) * wl (kIdx kb kk)
              + (min (xr (kIdx kb kk)) 0 - min (xl (kIdx kb kk)) 0) * wr (kIdx kb kk)))

/-- Block `kb`'s half-sum contribution to the upper output over the reals, for one row `xl, xr` of the input
    endpoints and one column `wl, wr` of the weight endpoints. -/
def blockHi (xl xr wl wr : Fin 256 → ℝ) (kb : Fin 2) : ℝ :=
  1 / 2 * ((∑ kk : Fin 128, (max (xl (kIdx kb kk)) 0 + max (xr (kIdx kb kk)) 0) * wr (kIdx kb kk))
            + ∑ kk : Fin 128, (min (xl (kIdx kb kk)) 0 + min (xr (kIdx kb kk)) 0) * wl (kIdx kb kk))
    + 1 / 2 * ∑ kk : Fin 128,
        max ((max (xr (kIdx kb kk)) 0 - max (xl (kIdx kb kk)) 0) * wr (kIdx kb kk)
              + (min (xr (kIdx kb kk)) 0 - min (xl (kIdx kb kk)) 0) * wl (kIdx kb kk))
            (-((max (xr (kIdx kb kk)) 0 - max (xl (kIdx kb kk)) 0) * wr (kIdx kb kk)
              + (min (xr (kIdx kb kk)) 0 - min (xl (kIdx kb kk)) 0) * wl (kIdx kb kk)))

/-- Over an ordered weight column, block `kb`'s lower contribution is the sum over the block of the least
    endpoint product. -/
theorem blockLo_eq (xl xr wl wr : Fin 256 → ℝ) (hw : ∀ k, wl k ≤ wr k) (kb : Fin 2) :
    blockLo xl xr wl wr kb
      = ∑ kk : Fin 128,
          min (min (xl (kIdx kb kk) * wl (kIdx kb kk)) (xl (kIdx kb kk) * wr (kIdx kb kk)))
              (min (xr (kIdx kb kk) * wl (kIdx kb kk)) (xr (kIdx kb kk) * wr (kIdx kb kk))) := by
  unfold blockLo
  rw [Finset.sum_congr rfl fun kk _ => Cert.IntervalReal.min4 _ _ _ _ (hw (kIdx kb kk))]
  rw [Finset.sum_sub_distrib, ← Finset.mul_sum, ← Finset.mul_sum, Finset.sum_add_distrib]
  simp only [abs_eq_max_neg]

/-- Over an ordered weight column, block `kb`'s upper contribution is the sum over the block of the greatest
    endpoint product. -/
theorem blockHi_eq (xl xr wl wr : Fin 256 → ℝ) (hw : ∀ k, wl k ≤ wr k) (kb : Fin 2) :
    blockHi xl xr wl wr kb
      = ∑ kk : Fin 128,
          max (max (xl (kIdx kb kk) * wl (kIdx kb kk)) (xl (kIdx kb kk) * wr (kIdx kb kk)))
              (max (xr (kIdx kb kk) * wl (kIdx kb kk)) (xr (kIdx kb kk) * wr (kIdx kb kk))) := by
  unfold blockHi
  rw [Finset.sum_congr rfl fun kk _ => Cert.IntervalReal.max4 _ _ _ _ (hw (kIdx kb kk))]
  rw [Finset.sum_add_distrib, ← Finset.mul_sum, ← Finset.mul_sum, Finset.sum_add_distrib]
  simp only [abs_eq_max_neg]

/-- The two lower block contributions add up to the sum over the whole reduction axis of the least endpoint product. -/
theorem lo_real (xl xr wl wr : Fin 256 → ℝ) (hw : ∀ k, wl k ≤ wr k) :
    blockLo xl xr wl wr 0 + blockLo xl xr wl wr 1
      = ∑ k : Fin 256, min (min (xl k * wl k) (xl k * wr k)) (min (xr k * wl k) (xr k * wr k)) := by
  rw [blockLo_eq _ _ _ _ hw, blockLo_eq _ _ _ _ hw]
  exact (sum_blocks fun k => min (min (xl k * wl k) (xl k * wr k)) (min (xr k * wl k) (xr k * wr k))).symm

/-- The two upper block contributions add up to the sum over the whole reduction axis of the greatest endpoint product. -/
theorem hi_real (xl xr wl wr : Fin 256 → ℝ) (hw : ∀ k, wl k ≤ wr k) :
    blockHi xl xr wl wr 0 + blockHi xl xr wl wr 1
      = ∑ k : Fin 256, max (max (xl k * wl k) (xl k * wr k)) (max (xr k * wl k) (xr k * wr k)) := by
  rw [blockHi_eq _ _ _ _ hw, blockHi_eq _ _ _ _ hw]
  exact (sum_blocks fun k => max (max (xl k * wl k) (xl k * wr k)) (max (xr k * wl k) (xr k * wr k))).symm

/-! ## The two forms over arrays of real numbers -/

/-- The weight column at `c` is ordered: the lower endpoint is at most the upper one. -/
theorem w_ordered (fb fa fc : (⟨2, ![256, 256]⟩ : Shape).Idx → ℝ) (c : Fin 256) (k : Fin 256) :
    fb (ix2 k c) - max (fa (ix2 k c)) 0 ≤ fb (ix2 k c) + max (fc (ix2 k c)) 0 := by
  have h1 := le_max_right (fa (ix2 k c)) 0
  have h2 := le_max_right (fc (ix2 k c)) 0
  linarith

/-- Over arrays of real numbers, block `kb`'s lower contribution is the coercion of its real counterpart. -/
theorem stepLo_coe (fl fr : (⟨2, ![1024, 256]⟩ : Shape).Idx → ℝ) (fb fa fc : (⟨2, ![256, 256]⟩ : Shape).Idx → ℝ) (r : Fin 1024) (c : Fin 256) (kb : Fin 2) :
    stepLo (fun i => ((fl i : ℝ) : EReal)) (fun i => ((fr i : ℝ) : EReal))
        (fun i => ((fb i : ℝ) : EReal)) (fun i => ((fa i : ℝ) : EReal)) (fun i => ((fc i : ℝ) : EReal)) r c kb
      = ((blockLo (fun k => fl (ix2 r k)) (fun k => fr (ix2 r k))
        (fun k => fb (ix2 k c) - max (fa (ix2 k c)) 0) (fun k => fb (ix2 k c) + max (fc (ix2 k c)) 0) kb : ℝ) : EReal) := by
  unfold stepLo blockLo sxp sxn dxp dxn wLo wHi
  rw [half_eq]
  simp only [coe_max_zero, coe_min_zero, ← EReal.coe_sub, ← EReal.coe_add, ← EReal.coe_mul, ← EReal.coe_neg,
    coe_max', coe_min', coe_sum']

/-- Over arrays of real numbers, block `kb`'s upper contribution is the coercion of its real counterpart. -/
theorem stepHi_coe (fl fr : (⟨2, ![1024, 256]⟩ : Shape).Idx → ℝ) (fb fa fc : (⟨2, ![256, 256]⟩ : Shape).Idx → ℝ) (r : Fin 1024) (c : Fin 256) (kb : Fin 2) :
    stepHi (fun i => ((fl i : ℝ) : EReal)) (fun i => ((fr i : ℝ) : EReal))
        (fun i => ((fb i : ℝ) : EReal)) (fun i => ((fa i : ℝ) : EReal)) (fun i => ((fc i : ℝ) : EReal)) r c kb
      = ((blockHi (fun k => fl (ix2 r k)) (fun k => fr (ix2 r k))
        (fun k => fb (ix2 k c) - max (fa (ix2 k c)) 0) (fun k => fb (ix2 k c) + max (fc (ix2 k c)) 0) kb : ℝ) : EReal) := by
  unfold stepHi blockHi sxp sxn dxp dxn wLo wHi
  rw [half_eq]
  simp only [coe_max_zero, coe_min_zero, ← EReal.coe_sub, ← EReal.coe_add, ← EReal.coe_mul, ← EReal.coe_neg,
    coe_max', coe_min', coe_sum']

/-- Over arrays of real numbers, the direct form's sum of least endpoint products is the coercion of the real sum. -/
theorem refLoSum_coe (fl fr : (⟨2, ![1024, 256]⟩ : Shape).Idx → ℝ) (fb fa fc : (⟨2, ![256, 256]⟩ : Shape).Idx → ℝ) (r : Fin 1024) (c : Fin 256) :
    (∑ k : Fin 256,
      min (min (((fl (ix2 r k) : ℝ) : EReal) * wLo (fun i => ((fb i : ℝ) : EReal)) (fun i => ((fa i : ℝ) : EReal)) k c)
               (((fl (ix2 r k) : ℝ) : EReal) * wHi (fun i => ((fb i : ℝ) : EReal)) (fun i => ((fc i : ℝ) : EReal)) k c))
          (min (((fr (ix2 r k) : ℝ) : EReal) * wLo (fun i => ((fb i : ℝ) : EReal)) (fun i => ((fa i : ℝ) : EReal)) k c)
               (((fr (ix2 r k) : ℝ) : EReal) * wHi (fun i => ((fb i : ℝ) : EReal)) (fun i => ((fc i : ℝ) : EReal)) k c)))
      = ((∑ k : Fin 256,
          min (min (fl (ix2 r k) * (fb (ix2 k c) - max (fa (ix2 k c)) 0)) (fl (ix2 r k) * (fb (ix2 k c) + max (fc (ix2 k c)) 0)))
              (min (fr (ix2 r k) * (fb (ix2 k c) - max (fa (ix2 k c)) 0)) (fr (ix2 r k) * (fb (ix2 k c) + max (fc (ix2 k c)) 0))) : ℝ) : EReal) := by
  unfold wLo wHi
  simp only [coe_max_zero, coe_min_zero, ← EReal.coe_sub, ← EReal.coe_add, ← EReal.coe_mul, ← EReal.coe_neg,
    coe_max', coe_min', coe_sum']

/-- Over arrays of real numbers, the direct form's sum of greatest endpoint products is the coercion of the real sum. -/
theorem refHiSum_coe (fl fr : (⟨2, ![1024, 256]⟩ : Shape).Idx → ℝ) (fb fa fc : (⟨2, ![256, 256]⟩ : Shape).Idx → ℝ) (r : Fin 1024) (c : Fin 256) :
    (∑ k : Fin 256,
      max (max (((fl (ix2 r k) : ℝ) : EReal) * wLo (fun i => ((fb i : ℝ) : EReal)) (fun i => ((fa i : ℝ) : EReal)) k c)
               (((fl (ix2 r k) : ℝ) : EReal) * wHi (fun i => ((fb i : ℝ) : EReal)) (fun i => ((fc i : ℝ) : EReal)) k c))
          (max (((fr (ix2 r k) : ℝ) : EReal) * wLo (fun i => ((fb i : ℝ) : EReal)) (fun i => ((fa i : ℝ) : EReal)) k c)
               (((fr (ix2 r k) : ℝ) : EReal) * wHi (fun i => ((fb i : ℝ) : EReal)) (fun i => ((fc i : ℝ) : EReal)) k c)))
      = ((∑ k : Fin 256,
          max (max (fl (ix2 r k) * (fb (ix2 k c) - max (fa (ix2 k c)) 0)) (fl (ix2 r k) * (fb (ix2 k c) + max (fc (ix2 k c)) 0)))
              (max (fr (ix2 r k) * (fb (ix2 k c) - max (fa (ix2 k c)) 0)) (fr (ix2 r k) * (fb (ix2 k c) + max (fc (ix2 k c)) 0))) : ℝ) : EReal) := by
  unfold wLo wHi
  simp only [coe_max_zero, coe_min_zero, ← EReal.coe_sub, ← EReal.coe_add, ← EReal.coe_mul, ← EReal.coe_neg,
    coe_max', coe_min', coe_sum']

/-- With real entries throughout, the accumulated half-sum form of the lower output equals the direct form. -/
theorem kerLoAt_eq_refLoAt (hl hr : ArrX) (wb wa wc : ArrW) (bb ba : ArrB)
    (h0 : IsReal hl) (h1 : IsReal hr) (h2 : IsReal wb) (h3 : IsReal wa) (h4 : IsReal wc) (h5 : IsReal bb) (h6 : IsReal ba)
    (r : Fin 1024) (c : Fin 256) :
    kerLoAt hl hr wb wa wc bb ba r c = refLoAt hl hr wb wa wc bb ba r c := by
  obtain ⟨fl, rfl⟩ := h0
  obtain ⟨fr, rfl⟩ := h1
  obtain ⟨fb, rfl⟩ := h2
  obtain ⟨fa, rfl⟩ := h3
  obtain ⟨fc, rfl⟩ := h4
  obtain ⟨gb, rfl⟩ := h5
  obtain ⟨ga, rfl⟩ := h6
  unfold kerLoAt refLoAt
  refine congrArg (· + bLo _ _ c) ?_
  rw [zero_add, zero_add, stepLo_coe, stepLo_coe, refLoSum_coe, ← EReal.coe_add]
  exact congrArg _ (lo_real _ _ _ _ (w_ordered fb fa fc c))

/-- With real entries throughout, the accumulated half-sum form of the upper output equals the direct form. -/
theorem kerHiAt_eq_refHiAt (hl hr : ArrX) (wb wa wc : ArrW) (bb bc : ArrB)
    (h0 : IsReal hl) (h1 : IsReal hr) (h2 : IsReal wb) (h3 : IsReal wa) (h4 : IsReal wc) (h5 : IsReal bb) (h7 : IsReal bc)
    (r : Fin 1024) (c : Fin 256) :
    kerHiAt hl hr wb wa wc bb bc r c = refHiAt hl hr wb wa wc bb bc r c := by
  obtain ⟨fl, rfl⟩ := h0
  obtain ⟨fr, rfl⟩ := h1
  obtain ⟨fb, rfl⟩ := h2
  obtain ⟨fa, rfl⟩ := h3
  obtain ⟨fc, rfl⟩ := h4
  obtain ⟨gb, rfl⟩ := h5
  obtain ⟨ga, rfl⟩ := h7
  unfold kerHiAt refHiAt
  refine congrArg (· + bHi _ _ c) ?_
  rw [zero_add, zero_add, stepHi_coe, stepHi_coe, refHiSum_coe, ← EReal.coe_add]
  exact congrArg _ (hi_real _ _ _ _ (w_ordered fb fa fc c))

end Cert.Interval

end
-- ==== Proof.lean ====
/-
  The interval dense layer: the tiled kernel against the direct formula.

  Both programs compute, for input intervals `[hl, hr]`, weight intervals `[wb − max wa 0, wb + max wc 0]` and
  bias intervals `[bb − max ba 0, bb + max bc 0]`, the interval `Σ_k [x]·[w] + [b]`, entry by entry.  The
  reference takes, for each `k`, the least and the greatest of the four endpoint products and sums them.  The
  kernel splits each input endpoint into its positive and negative parts, forms their sums and differences, and
  accumulates over two blocks of the reduction axis half of two matrix products minus (plus) half of a sum of
  absolute values.  The two agree on real numbers because the weight interval is ordered whatever the spreads'
  signs: for `wl ≤ wr`, the smaller of `x·wl, x·wr` is `x⁺·wl + x⁻·wr` and the larger is `x⁺·wr + x⁻·wl`, and a
  minimum (maximum) of two numbers is half their sum minus (plus) half the absolute value of their difference
  — no ordering of `hl` and `hr` is needed.  Distributing the products over the sums needs every entry to be a
  real number, which is what the precondition gives.

  The pieces: the specification in both arrangements (Proof/Spec.lean); the real-number identities
  (Proof/IntervalReal.lean) and their lift to the extended reals under finiteness (Proof/IntervalAlgebra.lean);
  finiteness from the precondition (Proof/Finite.lean); the reference's result read entry by entry
  (Proof/RefSpec.lean); the kernel's per-point values (Proof/Pieces.lean, Proof/PayloadAt.lean,
  Proof/PointValue.lean), its blocks' places and contents (Proof/Blocks.lean, Proof/HostPrefix.lean,
  Proof/BlockSpec.lean, Proof/Cover.lean) and its result arrays (Proof/KernelValue.lean).
-/
import proofs.«176591_j82231443849327_2_alg».proof.Defs
import proofs.«176591_j82231443849327_2_alg».proof.Proof.Gen.Kernel
import proofs.«176591_j82231443849327_2_alg».proof.Proof.Gen.Kernel.Skeleton
import proofs.«176591_j82231443849327_2_alg».proof.Proof.Gen.Kernel.Launch
import proofs.«176591_j82231443849327_2_alg».proof.Proof.Gen.Kernel.Points
import proofs.«176591_j82231443849327_2_alg».proof.Proof.Gen.Kernel.Frame
import proofs.«176591_j82231443849327_2_alg».proof.Proof.Gen.KernelIdeal
import proofs.«176591_j82231443849327_2_alg».proof.Proof.Gen.KernelIdeal.Skeleton
import proofs.«176591_j82231443849327_2_alg».proof.Proof.Gen.KernelIdeal.Launch
import proofs.«176591_j82231443849327_2_alg».proof.Proof.Gen.KernelIdeal.Points
import proofs.«176591_j82231443849327_2_alg».proof.Proof.Gen.KernelIdeal.Frame
import proofs.«176591_j82231443849327_2_alg».proof.Proof.Gen.ReferenceIdeal
import proofs.«176591_j82231443849327_2_alg».proof.Proof.Gen.KernelIdeal.Value
import proofs.«176591_j82231443849327_2_alg».proof.Proof.Gen.ReferenceIdeal.Run
import proofs.«176591_j82231443849327_2_alg».proof.Proof.Gen.ReferenceIdeal.Read
import proofs.«176591_j82231443849327_2_alg».proof.Proof.Gen.Pre_finite_inputs
import proofs.«176591_j82231443849327_2_alg».proof.Proof.KernelValue
import proofs.«176591_j82231443849327_2_alg».proof.Proof.RefSpec
import proofs.«176591_j82231443849327_2_alg».proof.Proof.Finite
import proofs.«176591_j82231443849327_2_alg».proof.Proof.IntervalAlgebra
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals, from memories agreeing on finite arguments, the kernel ends with the accumulated
    half-sum form of the arguments and the reference with the direct form; under finiteness the two forms are one
    function, entry by entry. -/
theorem algebraic : Cert.algebraic_KernelIdeal_ReferenceIdeal := by
  intro m ρ m' ρ' hpre hagree
  refine ⟨fun c => Cert.KernelIdeal.RefValue.GLo m c, fun c => Cert.KernelIdeal.RefValue.GHi m c,
    Cert.KernelIdeal.RefValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨r0, r1, r2, r3, r4, r5, r6, r7⟩ := Cert.Interval.isReal_of_pre _ _ _ _ _ _ _ _ (hpre c)
    rw [Cert.ReferenceIdeal.Read.val_main_v31_eq, Cert.ReferenceIdeal.RefValue.lo_eq,
      (hagree c).1, (hagree c).2.1, (hagree c).2.2.1, (hagree c).2.2.2.1, (hagree c).2.2.2.2.1, (hagree c).2.2.2.2.2.1, (hagree c).2.2.2.2.2.2.1]
    funext i
    show Cert.Interval.refLoAt _ _ _ _ _ _ _ _ _ = Cert.Interval.kerLoAt _ _ _ _ _ _ _ _ _
    exact (Cert.Interval.kerLoAt_eq_refLoAt _ _ _ _ _ _ _ r0 r1 r2 r3 r4 r5 r6 _ _).symm
  · obtain ⟨r0, r1, r2, r3, r4, r5, r6, r7⟩ := Cert.Interval.isReal_of_pre _ _ _ _ _ _ _ _ (hpre c)
    rw [Cert.ReferenceIdeal.Read.val_main_v37_eq, Cert.ReferenceIdeal.RefValue.hi_eq,
      (hagree c).1, (hagree c).2.1, (hagree c).2.2.1, (hagree c).2.2.2.1, (hagree c).2.2.2.2.1, (hagree c).2.2.2.2.2.1, (hagree c).2.2.2.2.2.2.2]
    funext i
    show Cert.Interval.refHiAt _ _ _ _ _ _ _ _ _ = Cert.Interval.kerHiAt _ _ _ _ _ _ _ _ _
    exact (Cert.Interval.kerHiAt_eq_refHiAt _ _ _ _ _ _ _ r0 r1 r2 r3 r4 r5 r7 _ _).symm

/-- The claim: the three runs, the idealization (which rewrote nothing), and the agreement of the results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
